-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S1x2048 : Shape := ⟨2, ![1, 2048]⟩
abbrev S1 : Shape := ⟨1, ![1]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S1 .f32) (main_arg5 : FVec F S2048 .f32) (main_arg6 : FVec F S2048x2048 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  main_v33

def fn {F : FTy → Type} [FloatOps F] (main_arg0 : FVec F S4x4096x2048 .f32) (main_arg1 : FVec F S2048x2048 .f32) (main_arg2 : FVec F S2048x2048 .f32) (main_arg3 : FVec F S1x2048 .f32) (main_arg4 : FVec F S1 .f32) (main_arg5 : FVec F S2048 .f32) (main_arg6 : FVec F S2048x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_arg5 main_arg6 main_v13 main_v16
-- ==== Kernel.lean ====
abbrev S4x4096x2048 : Shape := ⟨3, ![4, 4096, 2048]⟩
abbrev S2048x2048 : Shape := ⟨2, ![2048, 2048]⟩
abbrev S1x2048 : Shape := ⟨2, ![1, 2048]⟩
abbrev S1 : Shape := ⟨1, ![1]⟩
abbrev S2048 : Shape := ⟨1, ![2048]⟩
abbrev S512x512 : Shape := ⟨2, ![512, 512]⟩
abbrev S204x2048 : Shape := ⟨2, ![204, 2048]⟩
abbrev S2048x204 : Shape := ⟨2, ![2048, 204]⟩
abbrev S1x1 : Shape := ⟨2, ![1, 1]⟩
abbrev S16384x2048 : Shape := ⟨2, ![16384, 2048]⟩
abbrev S256x2048 : Shape := ⟨2, ![256, 2048]⟩
abbrev S256 : Shape := ⟨1, ![256]⟩
abbrev S256x1 : Shape := ⟨2, ![256, 1]⟩
abbrev S256x204 : Shape := ⟨2, ![256, 204]⟩

abbrev nBuf : Space → Nat
  | .hbm => 17
  | .vmem => 19
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1, .f32⟩
  | .hbm, ⟨5, _⟩ => ⟨S2048, .f32⟩
  | .hbm, ⟨6, _⟩ => ⟨S2048x2048, .f32⟩
  | .hbm, ⟨7, _⟩ => ⟨S2048x2048, .bf16⟩
  | .hbm, ⟨8, _⟩ => ⟨S204x2048, .f32⟩
  | .hbm, ⟨9, _⟩ => ⟨S204x2048, .bf16⟩
  | .hbm, ⟨10, _⟩ => ⟨S2048x204, .f32⟩
  | .hbm, ⟨11, _⟩ => ⟨S2048x204, .bf16⟩
  | .hbm, ⟨12, _⟩ => ⟨S1x1, .f32⟩
  | .hbm, ⟨13, _⟩ => ⟨S1x2048, .f32⟩
  | .hbm, ⟨14, _⟩ => ⟨S16384x2048, .f32⟩
  | .hbm, ⟨15, _⟩ => ⟨S16384x2048, .f32⟩
  | .hbm, ⟨16, _⟩ => ⟨S4x4096x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S256x2048, .f32⟩
  | .local _ .vmem, ⟨10, _⟩ => ⟨S256x2048, .f32⟩
  | .local _ .vmem, ⟨11, _⟩ => ⟨S2048x2048, .bf16⟩
  | .local _ .vmem, ⟨12, _⟩ => ⟨S204x2048, .bf16⟩
  | .local _ .vmem, ⟨13, _⟩ => ⟨S2048x204, .bf16⟩
  | .local _ .vmem, ⟨14, _⟩ => ⟨S1x2048, .f32⟩
  | .local _ .vmem, ⟨15, _⟩ => ⟨S1x1, .f32⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S204x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x204 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  slices_S2048x2048_S204x2048_0_0 : S2048x2048.Slices ![0, 0] S204x2048
  slices_S2048x2048_S2048x204_0_0 : S2048x2048.Slices ![0, 0] S2048x204
  shapeCasts_S1_S1x1 : S1.ShapeCasts S1x1
  shapeCasts_S2048_S1x2048 : S2048.ShapeCasts S1x2048
  shapeCasts_S4x4096x2048_S16384x2048 : S4x4096x2048.ShapeCasts S16384x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x2048_S256x2048 : S1x2048.Broadcasts S256x2048
  reduces_S256x2048_S256 : S256x2048.Reduces [1] S256
  shapeCasts_S256_S256x1 : S256.ShapeCasts S256x1
  broadcasts_S1x1_S256x1 : S1x1.Broadcasts S256x1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S204x2048_S204x2048_0_0 : ∀ a, (![0, 0] : Fin 2 → Nat) a + S204x2048.size a ≤ S204x2048.size a
  h_S204x2048 : 0 < S204x2048.numel
  shapeCasts_S204x2048_S204x2048 : S204x2048.ShapeCasts S204x2048
  inb_S2048x204_S2048x204_0_0 : ∀ a, (![0, 0] : Fin 2 → Nat) a + S2048x204.size a ≤ S2048x204.size a
  h_S2048x204 : 0 < S2048x204.numel
  shapeCasts_S2048x204_S2048x204 : S2048x204.ShapeCasts S2048x204
  shapeCasts_S1x2048_S1x2048 : S1x2048.ShapeCasts S1x2048
  broadcasts_S256x1_S256x2048 : S256x1.Broadcasts S256x2048
  shapeCasts_S16384x2048_S4x4096x2048 : S16384x2048.ShapeCasts S4x4096x2048
  dot_S512x512_S512x512_S512x512_1_0_0_1_n_n_wf : DotDims.WF S512x512 S512x512 S512x512 [1] [0] [0] [1] [] []
  dot_S256x2048_S2048x2048_S256x2048_1_1_0_0_n_n_wf : DotDims.WF S256x2048 S2048x2048 S256x2048 [1] [1] [0] [0] [] []
  dot_S256x2048_S204x2048_S256x204_1_1_0_0_n_n_wf : DotDims.WF S256x2048 S204x2048 S256x204 [1] [1] [0] [0] [] []
  dot_S256x204_S2048x204_S256x2048_1_1_0_0_n_n_wf : DotDims.WF S256x204 S2048x204 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x2048.size a
  hwx0_0 : ∀ i : grid0.Coords, EltTy.bits .f32 = 32 ∨ (Rect.block (s := S2048x2048) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x2048.size a
  hwx0_1 : ∀ i : grid0.Coords, EltTy.bits .f32 = 32 ∨ (Rect.block (s := S2048x2048) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x2048.size a
  hwx0_2 : ∀ i : grid0.Coords, EltTy.bits .f32 = 32 ∨ (Rect.block (s := S2048x2048) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S2048x2048.size a
  hwx0_3 : ∀ i : grid0.Coords, EltTy.bits .bf16 = 32 ∨ (Rect.block (s := S2048x2048) S512x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S16384x2048.size a
  hwx1_0 : ∀ i : grid1.Coords, EltTy.bits .f32 = 32 ∨ (Rect.block (s := S16384x2048) S256x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S204x2048.size a ≤ S204x2048.size a
  hwx1_2 : ∀ i : grid1.Coords, EltTy.bits .bf16 = 32 ∨ (Rect.block (s := S204x2048) S204x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x204.size a ≤ S2048x204.size a
  hwx1_3 : ∀ i : grid1.Coords, EltTy.bits .bf16 = 32 ∨ (Rect.block (s := S2048x204) S2048x204.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2048.size a ≤ S1x2048.size a
  hwx1_6 : ∀ i : grid1.Coords, EltTy.bits .f32 = 32 ∨ (Rect.block (s := S1x2048) S1x2048.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x2048.size a ≤ S16384x2048.size a
  hwx1_7 : ∀ i : grid1.Coords, EltTy.bits .f32 = 32 ∨ (Rect.block (s := S16384x2048) S256x2048.size (cc1_transform_7 i) (hinb1_7 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S256x2048_S204x2048_S256x204_1_1_0_0_n_n : DotDims S256x2048 S204x2048 S256x204 where
  lhsContracting := [1]
  rhsContracting := [1]
  lhsNonContracting := [0]
  rhsNonContracting := [0]
  lhsBatch := []
  rhsBatch := []
  wf := dot_S256x2048_S204x2048_S256x204_1_1_0_0_n_n_wf
def dot_S256x204_S2048x204_S256x2048_1_1_0_0_n_n : DotDims S256x204 S2048x204 S256x2048 where
  lhsContracting := [1]
  rhsContracting := [1]
  lhsNonContracting := [0]
  rhsNonContracting := [0]
  lhsBatch := []
  rhsBatch := []
  wf := dot_S256x204_S2048x204_S256x2048_1_1_0_0_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v7) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S204x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S2048x204.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v8) S256x2048.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S1x2048 : Shape := ⟨2, ![1, 2048]⟩
abbrev S1 : Shape := ⟨1, ![1]⟩
abbrev S2048 : Shape := ⟨1, ![2048]⟩
abbrev S4x4096x1 : Shape := ⟨3, ![4, 4096, 1]⟩
abbrev S1x1x1 : Shape := ⟨3, ![1, 1, 1]⟩
abbrev S_ : Shape := ⟨0, ![]⟩
abbrev S204x2048 : Shape := ⟨2, ![204, 2048]⟩
abbrev S4x4096x204 : Shape := ⟨3, ![4, 4096, 204]⟩
abbrev S2048x204 : Shape := ⟨2, ![2048, 204]⟩
abbrev S1x1x2048 : Shape := ⟨3, ![1, 1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1, .f32⟩
  | .hbm, ⟨5, _⟩ => ⟨S2048, .f32⟩
  | .hbm, ⟨6, _⟩ => ⟨S2048x2048, .f32⟩
  | .hbm, ⟨7, _⟩ => ⟨S4x4096x1, .f32⟩
  | .hbm, ⟨8, _⟩ => ⟨S1x1x1, .f32⟩
  | .hbm, ⟨9, _⟩ => ⟨S4x4096x1, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S2048x2048, .f32⟩
  | .hbm, ⟨20, _⟩ => ⟨S2048x2048, .f32⟩
  | .hbm, ⟨21, _⟩ => ⟨S4x4096x2048, .f32⟩
  | .hbm, ⟨22, _⟩ => ⟨S204x2048, .f32⟩
  | .hbm, ⟨23, _⟩ => ⟨S4x4096x204, .f32⟩
  | .hbm, ⟨24, _⟩ => ⟨S2048x204, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S1x1x2048, .f32⟩
  | .hbm, ⟨35, _⟩ => ⟨S4x4096x2048, .f32⟩
  | .hbm, ⟨36, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  bcast_S1_S1x1x1_2 : S1.BroadcastsInDim S1x1x1 (![2] : Fin 1 → Fin S1x1x1.rank)
  bcast_S1x1x1_S4x4096x1_0_1_2 : S1x1x1.BroadcastsInDim S4x4096x1 (![0, 1, 2] : Fin 3 → Fin S4x4096x1.rank)
  bcast_S_S4x4096x1 : S_.BroadcastsInDim S4x4096x1 (![] : Fin 0 → Fin S4x4096x1.rank)
  slices_S2048x2048_S204x2048_0_0 : S2048x2048.Slices ![0, 0] S204x2048
  slices_S2048x2048_S2048x204_0_0 : S2048x2048.Slices ![0, 0] S2048x204
  bcast_S4x4096x1_S4x4096x2048_0_1_2 : S4x4096x1.BroadcastsInDim S4x4096x2048 (![0, 1, 2] : Fin 3 → Fin S4x4096x2048.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  dot_S4x4096x2048_S1x2048_S4x4096x1_2_1_01_0_n_n_wf : DotDims.WF S4x4096x2048 S1x2048 S4x4096x1 [2] [1] [0, 1] [0] [] []
  dot_S2048x2048_S2048x2048_S2048x2048_1_0_0_1_n_n_wf : DotDims.WF S2048x2048 S2048x2048 S2048x2048 [1] [0] [0] [1] [] []
  dot_S4x4096x2048_S2048x2048_S4x4096x2048_2_1_01_0_n_n_wf : DotDims.WF S4x4096x2048 S2048x2048 S4x4096x2048 [2] [1] [0, 1] [0] [] []
  dot_S4x4096x2048_S204x2048_S4x4096x204_2_1_01_0_n_n_wf : DotDims.WF S4x4096x2048 S204x2048 S4x4096x204 [2] [1] [0, 1] [0] [] []
  dot_S4x4096x204_S2048x204_S4x4096x2048_2_1_01_0_n_n_wf : DotDims.WF S4x4096x204 S2048x204 S4x4096x2048 [2] [1] [0, 1] [0] [] []

variable [Facts₀]

def dot_S4x4096x2048_S1x2048_S4x4096x1_2_1_01_0_n_n : DotDims S4x4096x2048 S1x2048 S4x4096x1 where
  lhsContracting := [2]
  rhsContracting := [1]
  lhsNonContracting := [0, 1]
  rhsNonContracting := [0]
  lhsBatch := []
  rhsBatch := []
  wf := dot_S4x4096x2048_S1x2048_S4x4096x1_2_1_01_0_n_n_wf
def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf
def dot_S4x4096x2048_S204x2048_S4x4096x204_2_1_01_0_n_n : DotDims S4x4096x2048 S204x2048 S4x4096x204 where
  lhsContracting := [2]
  rhsContracting := [1]
  lhsNonContracting := [0, 1]
  rhsNonContracting := [0]
  lhsBatch := []
  rhsBatch := []
  wf := dot_S4x4096x2048_S204x2048_S4x4096x204_2_1_01_0_n_n_wf
def dot_S4x4096x204_S2048x204_S4x4096x2048_2_1_01_0_n_n : DotDims S4x4096x204 S2048x204 S4x4096x2048 where
  lhsContracting := [2]
  rhsContracting := [1]
  lhsNonContracting := [0, 1]
  rhsNonContracting := [0]
  lhsBatch := []
  rhsBatch := []
  wf := dot_S4x4096x204_S2048x204_S4x4096x2048_2_1_01_0_n_n_wf

class Facts : Prop extends Facts₀ where

variable [Facts]
-- ==== Proof.Kernel.Region0.Base.lean ====
/-
  The first kernel region (the masked product of the two weight matrices, accumulated over four blocks of the
  contracted axis): what is common to its three control cases. The grid has 4 × 4 × 4 points; the innermost
  coordinate k = t mod 4 selects the block of the contracted axis. At k = 0 the accumulator is reset, at every
  point the product of the two current blocks is added to it, and at k = 3 the accumulator times the mask block is
  stored to the output block; at the other points the output window is idle and not written back.
-/
import proofs.«129056_j47304769798215_2_alg».proof.Proof.Gen.Kernel.Launch
import proofs.«129056_j47304769798215_2_alg».proof.Proof.Gen.Kernel.Skeleton
import proofs.«129056_j47304769798215_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (when it is not
    fetched its block index has not moved), for any proof data whose array is the entry contents and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form over the grid -/

/-- "k = 0": the accumulator is reset. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "k = 3": the masked accumulator is stored to the output block. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where k ≠ 3 the output window is idle and is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

/-! ## The staging memrefs at a point, the accumulator, and the region invariant's shape -/

/-- One staging buffer of the output window, through which its contents are stated. -/
abbrev VO0_3 : View sig .tc .vmem S512x512 .bf16 := (Memref.whole cc0_stg3_0 : Memref sig .tc .vmem S512x512 .bf16).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
/-- The accumulator: a whole scoped buffer of the kernel's own, carried from point to point. -/
abbrev scM0_0 : Memref sig .tc .vmem S512x512 .f32 := Memref.whole cc0_scratch0
abbrev VS0_0 : View sig .tc .vmem S512x512 .f32 := scM0_0.view

/-- The scoped buffers of the core that this region neither stages nor uses (the second region's staging buffers), each
    whole at some contents. -/
abbrev restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The region's class invariant spelt out: the accumulator at some contents, the other scoped buffers, the
    generator register at some state. -/
theorem PhiA0_eq (c : Dev nD) :
    (Pipeline.ΦA spec0 c : sProp 𝕄)
      = iprop(iprop((∃ d, owns (c : Thread nD τ) scM0_0 fullShare d) ∗ restS c) ∗ (∃ r, prngReg c r)) := by
  unfold Pipeline.ΦA; rw [scopedRest0_eq]; simp only [scM0_0, owns_whole]; try rfl

end Cert.Kernel.Hand

end
-- ==== Proof.Kernel.Region0.RunA.lean ====
/-
  The first region's body at a point with k = 0: the accumulator, whatever it held, is overwritten with zeros and
  then with zeros plus the product of the two current blocks. The mask block and the output block are not touched.
  The pieces the accumulator ends with are found by running the body.
-/
import proofs.«129056_j47304769798215_2_alg».proof.Proof.Kernel.Region0.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at k = 0 on whole staging memrefs: the two factor blocks at their contents and handed back, the
    accumulator at anything and left with the pieces `LS0` written (last first). -/
noncomputable def kernelRun0_A (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : cond0_0 i) (hc1 : ¬cond0_1 i)
    (x0 x1 : Vec F S512x512 .f32) :
    { LS0 : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg7 fullShare d)
            ∗ (iprop(owns (c : Thread nD τ) arg3 fullShare x0 ∗ owns (c : Thread nD τ) arg4 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc0__attn_kernel i arg3 harg3 arg4 harg4 arg5 harg5 arg6 harg6 arg7 harg7) K } := by
  refine ⟨?_, fun E K => ?run⟩
  case run =>
    simp only [cc0__attn_kernel_eq_skeleton]; unfold cc0__attn_kernel_skel
    unfold owns
    iintro ⟨⟨%f0, %hf0, H0⟩, ⟨%f1, %hf1, H1⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.Hand

end
-- ==== Proof.Kernel.Region0.RunB.lean ====
/-
  The first region's body at a point with k = 1 or k = 2: the product of the two current blocks is added to the
  accumulator, which holds what the point before left. The mask block and the output block are not touched.
-/
import proofs.«129056_j47304769798215_2_alg».proof.Proof.Kernel.Region0.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at k ∈ {1, 2} on whole staging memrefs: the two factor blocks at their contents and handed back, the
    accumulator at `xs0` and left with the pieces `LS0` written (last first). -/
noncomputable def kernelRun0_B (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : ¬cond0_0 i) (hc1 : ¬cond0_1 i)
    (x0 x1 : Vec F S512x512 .f32) (xs0 : Vec F S512x512 .f32) :
    { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg7 fullShare xs0
            ∗ (iprop(owns (c : Thread nD τ) arg3 fullShare x0 ∗ owns (c : Thread nD τ) arg4 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc0__attn_kernel i arg3 harg3 arg4 harg4 arg5 harg5 arg6 harg6 arg7 harg7) K } := by
  refine ⟨?_, fun E K => ?run⟩
  case run =>
    simp only [cc0__attn_kernel_eq_skeleton]; unfold cc0__attn_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.Hand

end
-- ==== Proof.Kernel.Region0.RunC.lean ====
/-
  The first region's body at a point with k = 3: the product of the two current blocks is added to the
  accumulator, and the accumulator times the mask block is stored to the output block.
-/
import proofs.«129056_j47304769798215_2_alg».proof.Proof.Kernel.Region0.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at k = 3 on whole staging memrefs: the two factor blocks and the mask block at their contents and handed
    back, the output block at anything and left with the pieces `L3` written, the accumulator at `xs0` and left with
    the pieces `LS0` written (last first). -/
noncomputable def kernelRun0_C (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : ¬cond0_0 i) (hc1 : cond0_1 i)
    (x0 x1 x2 : Vec F S512x512 .f32) (xs0 : Vec F S512x512 .f32) :
    Σ' (L3 : List (View.Piece (Elt F) S512x512 .bf16)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc0__attn_kernel i arg3 harg3 arg4 harg4 arg5 harg5 arg6 harg6 arg7 harg7) K } := by
  refine ⟨?_, ?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.Kernel.Region0.lean ====
/-
  The first kernel region as proof data for the pipeline: what the accumulator holds after each grid point (by
  recursion on the point: reset and first product at k = 0, one more product at k = 1, 2, 3), what the output
  block's staging buffer holds after a point with k = 3 (the accumulator times the mask block), the region
  invariant carrying the accumulator's contents from point to point, and the body obligation at every point.
-/
import proofs.«129056_j47304769798215_2_alg».proof.Proof.Kernel.Region0.RunA
import proofs.«129056_j47304769798215_2_alg».proof.Proof.Kernel.Region0.RunB
import proofs.«129056_j47304769798215_2_alg».proof.Proof.Kernel.Region0.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At k = 0 the pieces written into the accumulator tile it. -/
theorem scover0_A (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : cond0_0 i) (hc1 : ¬cond0_1 i)
    (x0 x1 : Vec F S512x512 .f32) (y : S512x512.Idx) :
    ∃ pc ∈ (kernelRun0_A c i arg3 harg3 arg4 harg4 arg5 harg5 arg6 harg6 arg7 harg7 hc0 hc1 x0 x1).1, y ∈ pc.1.set :=
  View.cover_of_tiledL (kernelRun0_A c i arg3 harg3 arg4 harg4 arg5 harg5 arg6 harg6 arg7 harg7 hc0 hc1 x0 x1).1 S512x512.size (by sl_kernel_rfl) y
/-- The accumulator after a point with k = 0. -/
def sout0_A (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : cond0_0 i) (hc1 : ¬cond0_1 i)
    (x0 x1 : Vec F S512x512 .f32) : Vec F S512x512 .f32 :=
  VS0_0.read (Elt F) (VS0_0.writes (Elt F) VS0_0.junk (kernelRun0_A c i arg3 harg3 arg4 harg4 arg5 harg5 arg6 harg6 arg7 harg7 hc0 hc1 x0 x1).1)

theorem scover0_B (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : ¬cond0_0 i) (hc1 : ¬cond0_1 i)
    (x0 x1 xs0 : Vec F S512x512 .f32) (y : S512x512.Idx) :
    ∃ pc ∈ (kernelRun0_B c i arg3 harg3 arg4 harg4 arg5 harg5 arg6 harg6 arg7 harg7 hc0 hc1 x0 x1 xs0).1, y ∈ pc.1.set :=
  View.cover_of_tiledL (kernelRun0_B c i arg3 harg3 arg4 harg4 arg5 harg5 arg6 harg6 arg7 harg7 hc0 hc1 x0 x1 xs0).1 S512x512.size (by sl_kernel_rfl) y
/-- The accumulator after a point with k = 1 or 2, from what the point before left. -/
def sout0_B (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : ¬cond0_0 i) (hc1 : ¬cond0_1 i)
    (x0 x1 xs0 : Vec F S512x512 .f32) : Vec F S512x512 .f32 :=
  VS0_0.read (Elt F) (VS0_0.writes (Elt F) VS0_0.junk (kernelRun0_B c i arg3 harg3 arg4 harg4 arg5 harg5 arg6 harg6 arg7 harg7 hc0 hc1 x0 x1 xs0).1)

theorem cover0_C_3 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : ¬cond0_0 i) (hc1 : cond0_1 i)
    (x0 x1 x2 xs0 : Vec F S512x512 .f32) (y : S512x512.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S512x512.size (by sl_kernel_rfl) y
/-- The output block's staging buffer after a point with k = 3. -/
def out0_C_3 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : ¬cond0_0 i) (hc1 : cond0_1 i)
    (x0 x1 x2 xs0 : Vec F S512x512 .f32) : Vec F S512x512 .bf16 :=
  VO0_3.read (Elt F) (VO0_3.writes (Elt F) VO0_3.junk (kernelRun0_C c i arg3 harg3 arg4 harg4 arg5 harg5 arg6 harg6 arg7 harg7 hc0 hc1 x0 x1 x2 xs0).1)
theorem scover0_C (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : ¬cond0_0 i) (hc1 : cond0_1 i)
    (x0 x1 x2 xs0 : Vec F S512x512 .f32) (y : S512x512.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S512x512.size (by sl_kernel_rfl) y
/-- The accumulator after a point with k = 3. -/
def sout0_C (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : ¬cond0_0 i) (hc1 : cond0_1 i)
    (x0 x1 x2 xs0 : Vec F S512x512 .f32) : Vec F S512x512 .f32 :=
  VS0_0.read (Elt F) (VS0_0.writes (Elt F) VS0_0.junk (kernelRun0_C c i arg3 harg3 arg4 harg4 arg5 harg5 arg6 harg6 arg7 harg7 hc0 hc1 x0 x1 x2 xs0).2.1)

/-! ## The accumulator point by point -/

/-- What the accumulator holds after the body at position `n`: the case the closed forms select there, run at the
    point's blocks and (for k ≠ 0) over what position `n - 1` left. -/
def accAt0 (c : Dev nD) : (n : ℕ) → n < cfg0.N → Vec F S512x512 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩)
  | n + 1, hn =>
    if h0 : (n + 1) % 4 = 0 then
      if h1 : (n + 1) % 4 = 3 then
        False.elim (by omega)
      else
        sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩)
    else
      if h1 : (n + 1) % 4 = 3 then
        sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (accAt0 c n (Nat.lt_of_succ_lt hn))
      else
        sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (accAt0 c n (Nat.lt_of_succ_lt hn))

theorem accAt0_A (c : Dev nD) (t : Fin cfg0.N) (h0 : t.val % 4 = 0) (h1 : ¬t.val % 4 = 3) :
    accAt0 V c t.val t.isLt = sout0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) := by
  obtain ⟨n, hn⟩ := t
  cases n with
  | zero => exact rfl
  | succ n => exact (dif_pos h0).trans ((dif_neg h1).trans rfl)

theorem accAt0_B (c : Dev nD) (t : Fin cfg0.N) (h0 : ¬t.val % 4 = 0) (h1 : ¬t.val % 4 = 3) :
    accAt0 V c t.val t.isLt = sout0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt0_C (c : Dev nD) (t : Fin cfg0.N) (h0 : ¬t.val % 4 = 0) (h1 : t.val % 4 = 3) :
    accAt0 V c t.val t.isLt = sout0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's staging buffer holds after the body at point `t`: at k = 3 the masked accumulator; elsewhere
    the window is idle and neither written back nor read, and this is a placeholder nothing consults. -/
def outAt0 (c : Dev nD) (t : Fin cfg0.N) : Vec F S512x512 .bf16 :=
  if h1 : t.val % 4 = 3 then
    out0_C_3 c (grid0.coords t) (ms0_0 t) (hs0_0 t) (ms0_1 t) (hs0_1 t) (ms0_2 t) (hs0_2 t) (ms0_3 t) (hs0_3 t) scM0_0 (Memref.isWhole_whole _) (fun h => by have := (hcond0_0 t).mp h; omega) ((hcond0_1 t).mpr h1) (iblk0 V c 0 t) (iblk0 V c 1 t) (iblk0 V c 2 t) (accAt0 V c (t.val - 1) (Nat.lt_of_le_of_lt (Nat.sub_le _ _) t.isLt))
  else VO0_3.read (Elt F) VO0_3.junk

theorem outAt0_C (c : Dev nD) (t : Fin cfg0.N) (h0 : ¬t.val % 4 = 0) (h1 : t.val % 4 = 3) :
    outAt0 V c t = out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (accAt0 V c (t.val - 1) (Nat.lt_of_le_of_lt (Nat.sub_le _ _) t.isLt)) :=
  (dif_pos h1).trans rfl

/-! ## The region invariant and the proof data -/

/-- The invariant before position `n`: before the first point the class's (every scoped buffer at anything); afterwards
    the accumulator at what the point before left, the other scoped buffers at anything, the generator register at
    some state. -/
def PhiS (c : Dev nD) : (n : ℕ) → n ≤ cfg0.N → sProp 𝕄
  | 0, _ => Pipeline.ΦA spec0 c
  | n + 1, hn => iprop(iprop(owns (c : Thread nD τ) scM0_0 fullShare (accAt0 V c n hn) ∗ restS c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare (accAt0 V c n hn) ∗ restS c) ∗ (∃ r, prngReg c r)) := rfl
theorem PhiS_pos (c : Dev nD) (n : ℕ) (h : n ≤ cfg0.N) (hz : n ≠ 0) :
    PhiS V c n h = iprop(iprop(owns (c : Thread nD τ) scM0_0 fullShare (accAt0 V c (n - 1) (by omega)) ∗ restS c) ∗ (∃ r, prngReg c r)) := by
  cases n with
  | zero => exact absurd rfl hz
  | succ n => rfl

/-- The proof data of the first pipeline on core `c`, at the region's entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point: the closed forms say which case the point is in; the invariant hands the body the
    accumulator at what the point before left (at anything at the first point) and takes it back at this point's
    contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 64 := lt_of_lt_of_eq t.isLt (show cfg0.N = 64 from N_0)
  by_cases h0 : t.val % 4 = 0
  · have h1 : ¬t.val % 4 = 3 := by omega
    rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
    rw [accAt0_A V c t h0 h1]
    unfold sout0_A; (try dsimp only)
    by_cases hz : t.val = 0
    · rw [PhiS_castSucc V c t, PhiS_zero V c _ _ hz, PhiA0_eq]
      iintro ⟨⟨⟨HS0, Hrest⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t)).2 Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t)).2 Set.univ _)
      isplitl [H0]; · iexact H0
      isplitl [H1]; · iexact H1
      isplitl [HS0]; · iexists _; iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 4 = 3
    · rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [accAt0_C V c t h0 h1, outAt0_C V c t h0 h1]
      unfold out0_C_3 sout0_C; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [accAt0_B V c t h0 h1]
      unfold sout0_B; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) _).2 Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS0, Hrest⟩, Hg⟩
  isplitl [HS0 Hrest]
  · isplitl [HS0]
    · iexists _; iexact HS0
    iexact Hrest
  iexact Hg

end Cert.Kernel.Hand

end
-- ==== Proof.Kernel.Region1.lean ====
import proofs.«129056_j47304769798215_2_alg».proof.Proof.Gen.Kernel.Launch
import proofs.«129056_j47304769798215_2_alg».proof.Proof.Gen.Kernel.Skeleton
import proofs.«129056_j47304769798215_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second kernel region of the program, at any contents on entry: the frame half

The region is a pipeline over 64 grid points with eight windows. Window 0 walks the 16384×2048 input in
blocks of 256 rows; windows 1..6 are whole arrays (in order: the attention matrix, two projection factors, a
gate row, a gate offset, a bias row) brought in once, at the first point; window 7 walks the 16384×2048
output in blocks of 256 rows and is written back at every point.

Everything here is stated at a PARAMETER `V`: what each array of the core holds when the region is
entered. At a grid point each input window's buffer holds that window's block of its array (`iblk1`),
whether or not it was brought in at that very point, and the body leaves in the output window's buffer one
value computed from the seven input blocks (`out1_7`). -/

-- membership in a rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every array of the core holds when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Each input window's buffer holds its block at every point

An input window's buffer at a point holds what the last transfer into it brought. For a window brought in
at the first point only, the block index never moves afterwards, so the block brought then IS the block of
every later point; for window 0 the block is brought at every point. Either way: for ANY proof data whose
array is the entry contents' (`hA`) and whose body leaves the block in place (`hafter`), the buffer reads
the window's block of the entry contents. No window here is cut, and none is ever idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev r1_x : Rect S256x2048 := Rect.unit (s := S256x2048) ![0, 0] S256x2048.size inb_S256x2048_S256x2048_0_0
abbrev r1_attn : Rect S2048x2048 := Rect.unit (s := S2048x2048) ![0, 0] S2048x2048.size inb_S2048x2048_S2048x2048_0_0
abbrev r1_p : Rect S204x2048 := Rect.unit (s := S204x2048) ![0, 0] S204x2048.size inb_S204x2048_S204x2048_0_0
abbrev r1_q : Rect S2048x204 := Rect.unit (s := S2048x204) ![0, 0] S2048x204.size inb_S2048x204_S2048x204_0_0
abbrev r1_row : Rect S1x2048 := Rect.unit (s := S1x2048) ![0, 0] S1x2048.size inb_S1x2048_S1x2048_0_0
abbrev r1_one : Rect S1x1 := Rect.unit (s := S1x1) ![0, 0] S1x1.size inb_S1x1_S1x1_0_0

/-! ## What the body leaves in the output window's buffer -/

/-- The output window's buffer after the body, from the seven input blocks: one store of the whole buffer,
    its value computed from the whole-buffer loads of the inputs (`x0` the 256 input rows, `x1` the attention
    matrix, `x2` and `x3` the two projection factors, `x4` the gate row, `x5` the gate offset, `x6` the bias row). -/
def out1_7 (x0 : Vec F S256x2048 .f32) (x1 : Vec F S2048x2048 .bf16) (x2 : Vec F S204x2048 .bf16) (x3 : Vec F S2048x204 .bf16)
    (x4 : Vec F S1x2048 .f32) (x5 : Vec F S1x1 .f32) (x6 : Vec F S1x2048 .f32) : Vec F S256x2048 .f32 :=
  View.canon [⟨r1_x, k1_pay1 (View.ld x0 r1_x) (View.ld x4 r1_row) (View.ld x5 r1_one) (View.ld x1 r1_attn) (View.ld x2 r1_p) (View.ld x3 r1_q) (View.ld x6 r1_row)⟩]

/-- The one store is of the whole buffer, so it covers it. -/
theorem cover1_7 (p0 : Vec F S256x2048 .f32) (y : S256x2048.Idx) :
    ∃ pc ∈ ([⟨r1_x, p0⟩] : List (View.Piece (Elt F) S256x2048 .f32)), y ∈ pc.1.set :=
  View.cover_of_tiled [⟨r1_x, p0⟩] S256x2048.size (by rfl) y

/-! ## The body's triple -/

set_option maxHeartbeats 1000000 in
/-- The kernel body on whole buffers, the seven inputs' at read contents `x0 … x6` and the output's at anything,
    runs to the continuation holding the inputs' as they were and the output's at `out1_7` of the inputs'. The
    body reads the output's buffer once before storing into it; what it reads there is not used by the store. -/
theorem sound_kernel1 (c : Dev nD) (E : Set ℕ) (i : grid1.Coords)
    (arg1 : Memref sig .tc .vmem S256x2048 .f32) (harg1 : arg1.IsWhole) (arg2 : Memref sig .tc .vmem S2048x2048 .bf16) (harg2 : arg2.IsWhole)
    (arg3 : Memref sig .tc .vmem S204x2048 .bf16) (harg3 : arg3.IsWhole) (arg4 : Memref sig .tc .vmem S2048x204 .bf16) (harg4 : arg4.IsWhole)
    (arg5 : Memref sig .tc .vmem S1x2048 .f32) (harg5 : arg5.IsWhole) (arg6 : Memref sig .tc .vmem S1x1 .f32) (harg6 : arg6.IsWhole)
    (arg7 : Memref sig .tc .vmem S1x2048 .f32) (harg7 : arg7.IsWhole) (arg8 : Memref sig .tc .vmem S256x2048 .f32) (harg8 : arg8.IsWhole)
    (x0 : Vec F S256x2048 .f32) (x1 : Vec F S2048x2048 .bf16) (x2 : Vec F S204x2048 .bf16) (x3 : Vec F S2048x204 .bf16)
    (x4 : Vec F S1x2048 .f32) (x5 : Vec F S1x1 .f32) (x6 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E
          (cc1__main_kernel i arg1 harg1 arg2 harg2 arg3 harg3 arg4 harg4 arg5 harg5 arg6 harg6 arg7 harg7 arg8 harg8) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the pipeline on core `c`: the arrays as the region finds them (`V`); after the body at
    point `t` each input's buffer at its block and the output's at `out1_7` of the input blocks; the invariant
    "the other scoped buffers and the generator register, untouched"; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the entry contents: the definition projected, `V` never opened. -/
theorem A_eq1 (c : Dev nD) (w : Fin cfg1.W) : (dat1 V c).A w = V c (Pipeline.arrRef spec1 w) := by
  dsimp only [dat1]

/-- What the body leaves, window by window: the definition's case split reduced at each window's number. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by dsimp only [dat1]

/-- Each input's current buffer holds its block at every point, brought in there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks (`before1_W`), so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Run.lean ====
/-
  The whole program as a run: @main is the first kernel region, seven host operations (two slices with their
  conversions, three reshapes), the second kernel region, and one final reshape. The buffer contents at each of the
  five boundaries are a fold from the launch memory: a kernel region leaves its arrays at what its write-backs
  leave and every other buffer untouched; a stretch of host operations leaves what the operations compute. Every
  weakly fair execution terminates and ends with every unscoped buffer at the last boundary's contents.
-/
import proofs.«129056_j47304769798215_2_alg».proof.Proof.Kernel.Region0
import proofs.«129056_j47304769798215_2_alg».proof.Proof.Kernel.Region1
import proofs.«129056_j47304769798215_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
abbrev W0r : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (W0r m ρ) c).arrAt w cfg0.N
theorem W1_arr (c : Dev nD) (w : Fin cfg0.W) :
    W1 m ρ c (Proc.devRef .tc (Pipeline.arrRef spec0 w)) = (dat0 (W0r m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev W1r : (c : Dev nD) → (b : Ref sig .tc) → Buf (Elt F) ((c : Thread nD τ).loc b) := fun c b => W1 m ρ c b
theorem hF0 (c : Dev nD) (w : Fin cfg0.W) : (dat0 (W0r m ρ) c).arrAt w cfg0.N = W1r m ρ c (Pipeline.arrRef spec0 w) :=
  (W1_arr m ρ c w).symm
theorem hrest0 (c : Dev nD) : ∀ b, b ∉ Finset.univ.image (Pipeline.arrRef spec0) → W1r m ρ c b = W0r m ρ c b :=
  fun b hb => W1_of_ne m ρ c b fun w e => hb (Finset.mem_image.mpr ⟨w, Finset.mem_univ _, e⟩)

/-- After the seven host operations (the second region's entry). -/
abbrev W2 : Dev nD → Valuation τ sig (Elt F) := fun c => StableHlo.after hostOps1 (W1 m ρ c)
abbrev W2r : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (W2r m ρ) c).arrAt w cfg1.N
theorem W3_arr (c : Dev nD) (w : Fin cfg1.W) :
    W3 m ρ c (Proc.devRef .tc (Pipeline.arrRef spec1 w)) = (dat1 (W2r m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev W3r : (c : Dev nD) → (b : Ref sig .tc) → Buf (Elt F) ((c : Thread nD τ).loc b) := fun c b => W3 m ρ c b
theorem hF1 (c : Dev nD) (w : Fin cfg1.W) : (dat1 (W2r m ρ) c).arrAt w cfg1.N = W3r m ρ c (Pipeline.arrRef spec1 w) :=
  (W3_arr m ρ c w).symm
theorem hrest1 (c : Dev nD) : ∀ b, b ∉ Finset.univ.image (Pipeline.arrRef spec1) → W3r m ρ c b = W2r m ρ c b :=
  fun b hb => W3_of_ne m ρ c b fun w e => hb (Finset.mem_image.mpr ⟨w, Finset.mem_univ _, e⟩)
/-- After the final reshape: what the program returns with. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (W0r m ρ) c
  | ⟨1, _⟩ => fun c => dat1 (W2r m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- What rides along ends owing nothing. -/
theorem R_owes (c : Dev nD) : (R c : sProp 𝕄) ⊢ iprop(∃ W, owes (c : Thread nD τ) (0 : CellTallies nD τ sig Unit) W) := by
  iintro ⟨-, HO⟩; iexact HO
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at `W0`, left with them at `W1`. Its
    arrays are split out of the unscoped buffers and put back at the contents the pipeline leaves; the generator
    register goes into the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (W0r m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (W0r m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (W0r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop(Pipeline.scopedRest spec0 c ∗ ∃ r, prngReg c r) : sProp 𝕄) ⊢ (pdats m ρ 0 c).Φ 0 := by
      have := hin0 (W0r m ρ) c; unfold Pipeline.ΦA at this; exact this
    iintro ⟨Hp, -, Hr⟩
    iapply h1
    isplitl [Hr]; · iexact Hr
    iexact Hp
  hout c := by
    rw [Pipeline.ownSems0_none]
    have h1 : (pdats m ρ 0 c).Φ (Fin.last _) ⊢ (iprop(Pipeline.scopedRest spec0 c ∗ ∃ r, prngReg c r) : sProp 𝕄) := by
      have := hout0 (W0r m ρ) c; unfold Pipeline.ΦA at this; exact this
    iintro HPhi
    ihave H := h1 $$ HPhi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (W0r m ρ c) (W1r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. Its
    arrays are split out of the unscoped buffers and put back at the contents the pipeline leaves; the generator
    register goes into the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (W2r m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (W2r m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (W2r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (W2r m ρ c) (W3r m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the
    TensorCores terminates, nothing faulting, and every final state has every unscoped buffer at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W4 m ρ c))
    (hch := ⟨fun _ => .rfl, fun _ => .rfl, fun _ => .rfl, fun _ => .rfl, fun c => sep_mono .rfl (R_owes c)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨Hh, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.Kernel.Kept.lean ====
/-
  The program's arguments end as launched, and the frame claim: each argument array read back through the five
  boundaries of the run to the launch memory.
-/
import proofs.«129056_j47304769798215_2_alg».proof.Proof.Kernel.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_arg0` ends as launched: no host operation writes it, and a region either reads it through an input window or bypasses it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := W1_of_ne m ρ c main_arg0 (by decide)
    _ = m ((c : Thread nD τ).loc main_arg0) := rfl

/-- `main_arg1` ends as launched: no host operation writes it, and a region either reads it through an input window or bypasses it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 0).trans (((dat0 (W0r m ρ) c).arrAt_in 0 rfl _).trans (A_eq0 (W0r m ρ) c 0))
    _ = m ((c : Thread nD τ).loc main_arg1) := rfl

/-- `main_arg2` ends as launched: no host operation writes it, and a region either reads it through an input window or bypasses it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := (W1_arr m ρ c 1).trans (((dat0 (W0r m ρ) c).arrAt_in 1 rfl _).trans (A_eq0 (W0r m ρ) c 1))
    _ = m ((c : Thread nD τ).loc main_arg2) := rfl

/-- `main_arg3` ends as launched: no host operation writes it, and a region either reads it through an input window or bypasses it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := (W3_arr m ρ c 4).trans (((dat1 (W2r m ρ) c).arrAt_in 4 rfl _).trans (A_eq1 (W2r m ρ) c 4))
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl

/-- `main_arg4` ends as launched: no host operation writes it, and a region either reads it through an input window or bypasses it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl

/-- `main_arg5` ends as launched: no host operation writes it, and a region either reads it through an input window or bypasses it. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := StableHlo.after_of_writes_sub hostOps1 _ hostOps1_writes (by decide)
    _ = W0 m ρ c (Proc.devRef .tc main_arg5) := W1_of_ne m ρ c main_arg5 (by decide)
    _ = m ((c : Thread nD τ).loc main_arg5) := rfl

/-- `main_arg6` ends as launched: no host operation writes it, and a region either reads it through an input window or bypasses it. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (by decide)
    _ = W2 m ρ c (Proc.devRef .tc main_arg6) := W3_of_ne m ρ c main_arg6 (by decide)
    _ = W1 m ρ c (Proc.devRef .tc main_arg6) := StableHlo.after_of_writes_sub hostOps1 _ hostOps1_writes (by decide)
    _ = W0 m ρ c (Proc.devRef .tc main_arg6) := (W1_arr m ρ c 2).trans (((dat0 (W0r m ρ) c).arrAt_in 2 rfl _).trans (A_eq0 (W0r m ρ) c 2))
    _ = m ((c : Thread nD τ).loc main_arg6) := rfl

/-- THE FRAME: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.Kernel.Hand

end
-- ==== Proof.KernelIdeal.Region0.Base.lean ====
/-
  The first kernel region (the masked product of the two weight matrices, accumulated over four blocks of the
  contracted axis): what is common to its three control cases. The grid has 4 × 4 × 4 points; the innermost
  coordinate k = t mod 4 selects the block of the contracted axis. At k = 0 the accumulator is reset, at every
  point the product of the two current blocks is added to it, and at k = 3 the accumulator times the mask block is
  stored to the output block; at the other points the output window is idle and not written back.
-/
import proofs.«129056_j47304769798215_2_alg».proof.Proof.Gen.KernelIdeal.Launch
import proofs.«129056_j47304769798215_2_alg».proof.Proof.Gen.KernelIdeal.Skeleton
import proofs.«129056_j47304769798215_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (when it is not
    fetched its block index has not moved), for any proof data whose array is the entry contents and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form over the grid -/

/-- "k = 0": the accumulator is reset. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- "k = 3": the masked accumulator is stored to the output block. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where k ≠ 3 the output window is idle and is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel

/-! ## The staging memrefs at a point, the accumulator, and the region invariant's shape -/

/-- One staging buffer of the output window, through which its contents are stated. -/
abbrev VO0_3 : View sig .tc .vmem S512x512 .bf16 := (Memref.whole cc0_stg3_0 : Memref sig .tc .vmem S512x512 .bf16).view
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x512 .bf16 := win0_3.stage (cfg0.slots t 3)
abbrev hs0_3 (t : Fin cfg0.N) : (ms0_3 t).IsWhole := hstage0_3 ((cfg0.slots t 3).cast nbuf0_3)
/-- The accumulator: a whole scoped buffer of the kernel's own, carried from point to point. -/
abbrev scM0_0 : Memref sig .tc .vmem S512x512 .f32 := Memref.whole cc0_scratch0
abbrev VS0_0 : View sig .tc .vmem S512x512 .f32 := scM0_0.view

/-- The scoped buffers of the core that this region neither stages nor uses (the second region's staging buffers), each
    whole at some contents. -/
abbrev restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The region's class invariant spelt out: the accumulator at some contents, the other scoped buffers, the
    generator register at some state. -/
theorem PhiA0_eq (c : Dev nD) :
    (Pipeline.ΦA spec0 c : sProp 𝕄)
      = iprop(iprop((∃ d, owns (c : Thread nD τ) scM0_0 fullShare d) ∗ restS c) ∗ (∃ r, prngReg c r)) := by
  unfold Pipeline.ΦA; rw [scopedRest0_eq]; simp only [scM0_0, owns_whole]; try rfl

end Cert.KernelIdeal.Hand

end
-- ==== Proof.KernelIdeal.Region0.RunA.lean ====
/-
  The first region's body at a point with k = 0: the accumulator, whatever it held, is overwritten with zeros and
  then with zeros plus the product of the two current blocks. The mask block and the output block are not touched.
  The pieces the accumulator ends with are found by running the body.
-/
import proofs.«129056_j47304769798215_2_alg».proof.Proof.KernelIdeal.Region0.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at k = 0 on whole staging memrefs: the two factor blocks at their contents and handed back, the
    accumulator at anything and left with the pieces `LS0` written (last first). -/
noncomputable def kernelRun0_A (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : cond0_0 i) (hc1 : ¬cond0_1 i)
    (x0 x1 : Vec F S512x512 .f32) :
    { LS0 : List (View.Piece (Elt F) S512x512 .f32) //
      ∀ (E : Set ℕ) (K : PUnit → sProp 𝕄),
        iprop(owns (c : Thread nD τ) arg3 fullShare x0 ∗ owns (c : Thread nD τ) arg4 fullShare x1 ∗ (∃ d, owns (c : Thread nD τ) arg7 fullShare d)
            ∗ (iprop(owns (c : Thread nD τ) arg3 fullShare x0 ∗ owns (c : Thread nD τ) arg4 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc0__attn_kernel i arg3 harg3 arg4 harg4 arg5 harg5 arg6 harg6 arg7 harg7) K } := by
  refine ⟨?_, fun E K => ?run⟩
  case run =>
    simp only [cc0__attn_kernel_eq_skeleton]; unfold cc0__attn_kernel_skel
    unfold owns
    iintro ⟨⟨%f0, %hf0, H0⟩, ⟨%f1, %hf1, H1⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.Hand

end
-- ==== Proof.KernelIdeal.Region0.RunB.lean ====
/-
  The first region's body at a point with k = 1 or k = 2: the product of the two current blocks is added to the
  accumulator, which holds what the point before left. The mask block and the output block are not touched.
-/
import proofs.«129056_j47304769798215_2_alg».proof.Proof.KernelIdeal.Region0.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at k ∈ {1, 2} on whole staging memrefs: the two factor blocks at their contents and handed back, the
    accumulator at `xs0` and left with the pieces `LS0` written (last first). -/
noncomputable def kernelRun0_B (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : ¬cond0_0 i) (hc1 : ¬cond0_1 i)
    (x0 x1 : Vec F S512x512 .f32) (xs0 : Vec F S512x512 .f32) :
    { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg7 fullShare xs0
            ∗ (iprop(owns (c : Thread nD τ) arg3 fullShare x0 ∗ owns (c : Thread nD τ) arg4 fullShare x1 ∗ (∃ f, arg7.view.loc (c : Thread nD τ) ↦[arg7.view.set]{fullShare} arg7.view.writes (Elt F) f LS0)) -∗ K ⟨⟩))
          ⊢ wp frame (wpE (defs₀ (F := F)) Variants.none c none) E (cc0__attn_kernel i arg3 harg3 arg4 harg4 arg5 harg5 arg6 harg6 arg7 harg7) K } := by
  refine ⟨?_, fun E K => ?run⟩
  case run =>
    simp only [cc0__attn_kernel_eq_skeleton]; unfold cc0__attn_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.Hand

end
-- ==== Proof.KernelIdeal.Region0.RunC.lean ====
/-
  The first region's body at a point with k = 3: the product of the two current blocks is added to the
  accumulator, and the accumulator times the mask block is stored to the output block.
-/
import proofs.«129056_j47304769798215_2_alg».proof.Proof.KernelIdeal.Region0.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at k = 3 on whole staging memrefs: the two factor blocks and the mask block at their contents and handed
    back, the output block at anything and left with the pieces `L3` written, the accumulator at `xs0` and left with
    the pieces `LS0` written (last first). -/
noncomputable def kernelRun0_C (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : ¬cond0_0 i) (hc1 : cond0_1 i)
    (x0 x1 x2 : Vec F S512x512 .f32) (xs0 : Vec F S512x512 .f32) :
    Σ' (L3 : List (View.Piece (Elt F) S512x512 .bf16)), { LS0 : List (View.Piece (Elt F) S512x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc0__attn_kernel i arg3 harg3 arg4 harg4 arg5 harg5 arg6 harg6 arg7 harg7) K } := by
  refine ⟨?_, ?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KernelIdeal.Region0.lean ====
/-
  The first kernel region as proof data for the pipeline: what the accumulator holds after each grid point (by
  recursion on the point: reset and first product at k = 0, one more product at k = 1, 2, 3), what the output
  block's staging buffer holds after a point with k = 3 (the accumulator times the mask block), the region
  invariant carrying the accumulator's contents from point to point, and the body obligation at every point.
-/
import proofs.«129056_j47304769798215_2_alg».proof.Proof.KernelIdeal.Region0.RunA
import proofs.«129056_j47304769798215_2_alg».proof.Proof.KernelIdeal.Region0.RunB
import proofs.«129056_j47304769798215_2_alg».proof.Proof.KernelIdeal.Region0.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At k = 0 the pieces written into the accumulator tile it. -/
theorem scover0_A (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : cond0_0 i) (hc1 : ¬cond0_1 i)
    (x0 x1 : Vec F S512x512 .f32) (y : S512x512.Idx) :
    ∃ pc ∈ (kernelRun0_A c i arg3 harg3 arg4 harg4 arg5 harg5 arg6 harg6 arg7 harg7 hc0 hc1 x0 x1).1, y ∈ pc.1.set :=
  View.cover_of_tiledL (kernelRun0_A c i arg3 harg3 arg4 harg4 arg5 harg5 arg6 harg6 arg7 harg7 hc0 hc1 x0 x1).1 S512x512.size (by sl_kernel_rfl) y
/-- The accumulator after a point with k = 0. -/
def sout0_A (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : cond0_0 i) (hc1 : ¬cond0_1 i)
    (x0 x1 : Vec F S512x512 .f32) : Vec F S512x512 .f32 :=
  VS0_0.read (Elt F) (VS0_0.writes (Elt F) VS0_0.junk (kernelRun0_A c i arg3 harg3 arg4 harg4 arg5 harg5 arg6 harg6 arg7 harg7 hc0 hc1 x0 x1).1)

theorem scover0_B (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : ¬cond0_0 i) (hc1 : ¬cond0_1 i)
    (x0 x1 xs0 : Vec F S512x512 .f32) (y : S512x512.Idx) :
    ∃ pc ∈ (kernelRun0_B c i arg3 harg3 arg4 harg4 arg5 harg5 arg6 harg6 arg7 harg7 hc0 hc1 x0 x1 xs0).1, y ∈ pc.1.set :=
  View.cover_of_tiledL (kernelRun0_B c i arg3 harg3 arg4 harg4 arg5 harg5 arg6 harg6 arg7 harg7 hc0 hc1 x0 x1 xs0).1 S512x512.size (by sl_kernel_rfl) y
/-- The accumulator after a point with k = 1 or 2, from what the point before left. -/
def sout0_B (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : ¬cond0_0 i) (hc1 : ¬cond0_1 i)
    (x0 x1 xs0 : Vec F S512x512 .f32) : Vec F S512x512 .f32 :=
  VS0_0.read (Elt F) (VS0_0.writes (Elt F) VS0_0.junk (kernelRun0_B c i arg3 harg3 arg4 harg4 arg5 harg5 arg6 harg6 arg7 harg7 hc0 hc1 x0 x1 xs0).1)

theorem cover0_C_3 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : ¬cond0_0 i) (hc1 : cond0_1 i)
    (x0 x1 x2 xs0 : Vec F S512x512 .f32) (y : S512x512.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S512x512.size (by sl_kernel_rfl) y
/-- The output block's staging buffer after a point with k = 3. -/
def out0_C_3 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : ¬cond0_0 i) (hc1 : cond0_1 i)
    (x0 x1 x2 xs0 : Vec F S512x512 .f32) : Vec F S512x512 .bf16 :=
  VO0_3.read (Elt F) (VO0_3.writes (Elt F) VO0_3.junk (kernelRun0_C c i arg3 harg3 arg4 harg4 arg5 harg5 arg6 harg6 arg7 harg7 hc0 hc1 x0 x1 x2 xs0).1)
theorem scover0_C (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : ¬cond0_0 i) (hc1 : cond0_1 i)
    (x0 x1 x2 xs0 : Vec F S512x512 .f32) (y : S512x512.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S512x512.size (by sl_kernel_rfl) y
/-- The accumulator after a point with k = 3. -/
def sout0_C (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : ¬cond0_0 i) (hc1 : cond0_1 i)
    (x0 x1 x2 xs0 : Vec F S512x512 .f32) : Vec F S512x512 .f32 :=
  VS0_0.read (Elt F) (VS0_0.writes (Elt F) VS0_0.junk (kernelRun0_C c i arg3 harg3 arg4 harg4 arg5 harg5 arg6 harg6 arg7 harg7 hc0 hc1 x0 x1 x2 xs0).2.1)

/-! ## The accumulator point by point -/

/-- What the accumulator holds after the body at position `n`: the case the closed forms select there, run at the
    point's blocks and (for k ≠ 0) over what position `n - 1` left. -/
def accAt0 (c : Dev nD) : (n : ℕ) → n < cfg0.N → Vec F S512x512 .f32
  | 0, hn => sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩)
  | n + 1, hn =>
    if h0 : (n + 1) % 4 = 0 then
      if h1 : (n + 1) % 4 = 3 then
        False.elim (by omega)
      else
        sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩)
    else
      if h1 : (n + 1) % 4 = 3 then
        sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (accAt0 c n (Nat.lt_of_succ_lt hn))
      else
        sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (accAt0 c n (Nat.lt_of_succ_lt hn))

theorem accAt0_A (c : Dev nD) (t : Fin cfg0.N) (h0 : t.val % 4 = 0) (h1 : ¬t.val % 4 = 3) :
    accAt0 V c t.val t.isLt = sout0_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) := by
  obtain ⟨n, hn⟩ := t
  cases n with
  | zero => exact rfl
  | succ n => exact (dif_pos h0).trans ((dif_neg h1).trans rfl)

theorem accAt0_B (c : Dev nD) (t : Fin cfg0.N) (h0 : ¬t.val % 4 = 0) (h1 : ¬t.val % 4 = 3) :
    accAt0 V c t.val t.isLt = sout0_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt0_C (c : Dev nD) (t : Fin cfg0.N) (h0 : ¬t.val % 4 = 0) (h1 : t.val % 4 = 3) :
    accAt0 V c t.val t.isLt = sout0_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (accAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's staging buffer holds after the body at point `t`: at k = 3 the masked accumulator; elsewhere
    the window is idle and neither written back nor read, and this is a placeholder nothing consults. -/
def outAt0 (c : Dev nD) (t : Fin cfg0.N) : Vec F S512x512 .bf16 :=
  if h1 : t.val % 4 = 3 then
    out0_C_3 c (grid0.coords t) (ms0_0 t) (hs0_0 t) (ms0_1 t) (hs0_1 t) (ms0_2 t) (hs0_2 t) (ms0_3 t) (hs0_3 t) scM0_0 (Memref.isWhole_whole _) (fun h => by have := (hcond0_0 t).mp h; omega) ((hcond0_1 t).mpr h1) (iblk0 V c 0 t) (iblk0 V c 1 t) (iblk0 V c 2 t) (accAt0 V c (t.val - 1) (Nat.lt_of_le_of_lt (Nat.sub_le _ _) t.isLt))
  else VO0_3.read (Elt F) VO0_3.junk

theorem outAt0_C (c : Dev nD) (t : Fin cfg0.N) (h0 : ¬t.val % 4 = 0) (h1 : t.val % 4 = 3) :
    outAt0 V c t = out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (accAt0 V c (t.val - 1) (Nat.lt_of_le_of_lt (Nat.sub_le _ _) t.isLt)) :=
  (dif_pos h1).trans rfl

/-! ## The region invariant and the proof data -/

/-- The invariant before position `n`: before the first point the class's (every scoped buffer at anything); afterwards
    the accumulator at what the point before left, the other scoped buffers at anything, the generator register at
    some state. -/
def PhiS (c : Dev nD) : (n : ℕ) → n ≤ cfg0.N → sProp 𝕄
  | 0, _ => Pipeline.ΦA spec0 c
  | n + 1, hn => iprop(iprop(owns (c : Thread nD τ) scM0_0 fullShare (accAt0 V c n hn) ∗ restS c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare (accAt0 V c n hn) ∗ restS c) ∗ (∃ r, prngReg c r)) := rfl
theorem PhiS_pos (c : Dev nD) (n : ℕ) (h : n ≤ cfg0.N) (hz : n ≠ 0) :
    PhiS V c n h = iprop(iprop(owns (c : Thread nD τ) scM0_0 fullShare (accAt0 V c (n - 1) (by omega)) ∗ restS c) ∗ (∃ r, prngReg c r)) := by
  cases n with
  | zero => exact absurd rfl hz
  | succ n => rfl

/-- The proof data of the first pipeline on core `c`, at the region's entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point: the closed forms say which case the point is in; the invariant hands the body the
    accumulator at what the point before left (at anything at the first point) and takes it back at this point's
    contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 64 := lt_of_lt_of_eq t.isLt (show cfg0.N = 64 from N_0)
  by_cases h0 : t.val % 4 = 0
  · have h1 : ¬t.val % 4 = 3 := by omega
    rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
    rw [accAt0_A V c t h0 h1]
    unfold sout0_A; (try dsimp only)
    by_cases hz : t.val = 0
    · rw [PhiS_castSucc V c t, PhiS_zero V c _ _ hz, PhiA0_eq]
      iintro ⟨⟨⟨HS0, Hrest⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t)).2 Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t)).2 Set.univ _)
      isplitl [H0]; · iexact H0
      isplitl [H1]; · iexact H1
      isplitl [HS0]; · iexists _; iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 4 = 3
    · rw [show (dat0 V c).leavesExact 3 t = owns (c : Thread nD τ) (ms0_3 t) fullShare ((dat0 V c).after 3 t) from by
        unfold Dat.leavesExact; rw [liveAt0_3_C t (fun h => h0 ((hcond0_0 t).mp h)) ((hcond0_1 t).mpr h1)], after0_3]
      rw [accAt0_C V c t h0 h1, outAt0_C V c t h0 h1]
      unfold out0_C_3 sout0_C; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [accAt0_B V c t h0 h1]
      unfold sout0_B; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) _).2 Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS0, Hrest⟩, Hg⟩
  isplitl [HS0 Hrest]
  · isplitl [HS0]
    · iexists _; iexact HS0
    iexact Hrest
  iexact Hg

end Cert.KernelIdeal.Hand

end
-- ==== Proof.KernelIdeal.Region1.lean ====
import proofs.«129056_j47304769798215_2_alg».proof.Proof.Gen.KernelIdeal.Launch
import proofs.«129056_j47304769798215_2_alg».proof.Proof.Gen.KernelIdeal.Skeleton
import proofs.«129056_j47304769798215_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second kernel region of the program, at any contents on entry: the frame half

The region is a pipeline over 64 grid points with eight windows. Window 0 walks the 16384×2048 input in
blocks of 256 rows; windows 1..6 are whole arrays (in order: the attention matrix, two projection factors, a
gate row, a gate offset, a bias row) brought in once, at the first point; window 7 walks the 16384×2048
output in blocks of 256 rows and is written back at every point.

Everything here is stated at a PARAMETER `V`: what each array of the core holds when the region is
entered. At a grid point each input window's buffer holds that window's block of its array (`iblk1`),
whether or not it was brought in at that very point, and the body leaves in the output window's buffer one
value computed from the seven input blocks (`out1_7`). -/

-- membership in a rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what every array of the core holds when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Each input window's buffer holds its block at every point

An input window's buffer at a point holds what the last transfer into it brought. For a window brought in
at the first point only, the block index never moves afterwards, so the block brought then IS the block of
every later point; for window 0 the block is brought at every point. Either way: for ANY proof data whose
array is the entry contents' (`hA`) and whose body leaves the block in place (`hafter`), the buffer reads
the window's block of the entry contents. No window here is cut, and none is ever idle. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev r1_x : Rect S256x2048 := Rect.unit (s := S256x2048) ![0, 0] S256x2048.size inb_S256x2048_S256x2048_0_0
abbrev r1_attn : Rect S2048x2048 := Rect.unit (s := S2048x2048) ![0, 0] S2048x2048.size inb_S2048x2048_S2048x2048_0_0
abbrev r1_p : Rect S204x2048 := Rect.unit (s := S204x2048) ![0, 0] S204x2048.size inb_S204x2048_S204x2048_0_0
abbrev r1_q : Rect S2048x204 := Rect.unit (s := S2048x204) ![0, 0] S2048x204.size inb_S2048x204_S2048x204_0_0
abbrev r1_row : Rect S1x2048 := Rect.unit (s := S1x2048) ![0, 0] S1x2048.size inb_S1x2048_S1x2048_0_0
abbrev r1_one : Rect S1x1 := Rect.unit (s := S1x1) ![0, 0] S1x1.size inb_S1x1_S1x1_0_0

/-! ## What the body leaves in the output window's buffer -/

/-- The output window's buffer after the body, from the seven input blocks: one store of the whole buffer,
    its value computed from the whole-buffer loads of the inputs (`x0` the 256 input rows, `x1` the attention
    matrix, `x2` and `x3` the two projection factors, `x4` the gate row, `x5` the gate offset, `x6` the bias row). -/
def out1_7 (x0 : Vec F S256x2048 .f32) (x1 : Vec F S2048x2048 .bf16) (x2 : Vec F S204x2048 .bf16) (x3 : Vec F S2048x204 .bf16)
    (x4 : Vec F S1x2048 .f32) (x5 : Vec F S1x1 .f32) (x6 : Vec F S1x2048 .f32) : Vec F S256x2048 .f32 :=
  View.canon [⟨r1_x, k1_pay1 (View.ld x0 r1_x) (View.ld x4 r1_row) (View.ld x5 r1_one) (View.ld x1 r1_attn) (View.ld x2 r1_p) (View.ld x3 r1_q) (View.ld x6 r1_row)⟩]

/-- The one store is of the whole buffer, so it covers it. -/
theorem cover1_7 (p0 : Vec F S256x2048 .f32) (y : S256x2048.Idx) :
    ∃ pc ∈ ([⟨r1_x, p0⟩] : List (View.Piece (Elt F) S256x2048 .f32)), y ∈ pc.1.set :=
  View.cover_of_tiled [⟨r1_x, p0⟩] S256x2048.size (by rfl) y

/-! ## The body's triple -/

set_option maxHeartbeats 1000000 in
/-- The kernel body on whole buffers, the seven inputs' at read contents `x0 … x6` and the output's at anything,
    runs to the continuation holding the inputs' as they were and the output's at `out1_7` of the inputs'. The
    body reads the output's buffer once before storing into it; what it reads there is not used by the store. -/
theorem sound_kernel1 (c : Dev nD) (E : Set ℕ) (i : grid1.Coords)
    (arg1 : Memref sig .tc .vmem S256x2048 .f32) (harg1 : arg1.IsWhole) (arg2 : Memref sig .tc .vmem S2048x2048 .bf16) (harg2 : arg2.IsWhole)
    (arg3 : Memref sig .tc .vmem S204x2048 .bf16) (harg3 : arg3.IsWhole) (arg4 : Memref sig .tc .vmem S2048x204 .bf16) (harg4 : arg4.IsWhole)
    (arg5 : Memref sig .tc .vmem S1x2048 .f32) (harg5 : arg5.IsWhole) (arg6 : Memref sig .tc .vmem S1x1 .f32) (harg6 : arg6.IsWhole)
    (arg7 : Memref sig .tc .vmem S1x2048 .f32) (harg7 : arg7.IsWhole) (arg8 : Memref sig .tc .vmem S256x2048 .f32) (harg8 : arg8.IsWhole)
    (x0 : Vec F S256x2048 .f32) (x1 : Vec F S2048x2048 .bf16) (x2 : Vec F S204x2048 .bf16) (x3 : Vec F S2048x204 .bf16)
    (x4 : Vec F S1x2048 .f32) (x5 : Vec F S1x1 .f32) (x6 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E
          (cc1__main_kernel i arg1 harg1 arg2 harg2 arg3 harg3 arg4 harg4 arg5 harg5 arg6 harg6 arg7 harg7 arg8 harg8) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the pipeline on core `c`: the arrays as the region finds them (`V`); after the body at
    point `t` each input's buffer at its block and the output's at `out1_7` of the input blocks; the invariant
    "the other scoped buffers and the generator register, untouched"; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the entry contents: the definition projected, `V` never opened. -/
theorem A_eq1 (c : Dev nD) (w : Fin cfg1.W) : (dat1 V c).A w = V c (Pipeline.arrRef spec1 w) := by
  dsimp only [dat1]

/-- What the body leaves, window by window: the definition's case split reduced at each window's number. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by dsimp only [dat1]

/-- Each input's current buffer holds its block at every point, brought in there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' buffers hold their blocks (`before1_W`), so the body's triple applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Run.lean ====
/-
  The whole program as a run: @main is the first kernel region, seven host operations (two slices with their
  conversions, three reshapes), the second kernel region, and one final reshape. The buffer contents at each of the
  five boundaries are a fold from the launch memory: a kernel region leaves its arrays at what its write-backs
  leave and every other buffer untouched; a stretch of host operations leaves what the operations compute. Every
  weakly fair execution terminates and ends with every unscoped buffer at the last boundary's contents.
-/
import proofs.«129056_j47304769798215_2_alg».proof.Proof.KernelIdeal.Region0
import proofs.«129056_j47304769798215_2_alg».proof.Proof.KernelIdeal.Region1
import proofs.«129056_j47304769798215_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev W0 : Dev nD → Valuation τ sig (Elt F) := fun c b => (s₀ m ρ).mem ((c : Dev nD), b)
abbrev W0r : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (W0r m ρ) c).arrAt w cfg0.N
theorem W1_arr (c : Dev nD) (w : Fin cfg0.W) :
    W1 m ρ c (Proc.devRef .tc (Pipeline.arrRef spec0 w)) = (dat0 (W0r m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev W1r : (c : Dev nD) → (b : Ref sig .tc) → Buf (Elt F) ((c : Thread nD τ).loc b) := fun c b => W1 m ρ c b
theorem hF0 (c : Dev nD) (w : Fin cfg0.W) : (dat0 (W0r m ρ) c).arrAt w cfg0.N = W1r m ρ c (Pipeline.arrRef spec0 w) :=
  (W1_arr m ρ c w).symm
theorem hrest0 (c : Dev nD) : ∀ b, b ∉ Finset.univ.image (Pipeline.arrRef spec0) → W1r m ρ c b = W0r m ρ c b :=
  fun b hb => W1_of_ne m ρ c b fun w e => hb (Finset.mem_image.mpr ⟨w, Finset.mem_univ _, e⟩)

/-- After the seven host operations (the second region's entry). -/
abbrev W2 : Dev nD → Valuation τ sig (Elt F) := fun c => StableHlo.after hostOps1 (W1 m ρ c)
abbrev W2r : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (W2r m ρ) c).arrAt w cfg1.N
theorem W3_arr (c : Dev nD) (w : Fin cfg1.W) :
    W3 m ρ c (Proc.devRef .tc (Pipeline.arrRef spec1 w)) = (dat1 (W2r m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev W3r : (c : Dev nD) → (b : Ref sig .tc) → Buf (Elt F) ((c : Thread nD τ).loc b) := fun c b => W3 m ρ c b
theorem hF1 (c : Dev nD) (w : Fin cfg1.W) : (dat1 (W2r m ρ) c).arrAt w cfg1.N = W3r m ρ c (Pipeline.arrRef spec1 w) :=
  (W3_arr m ρ c w).symm
theorem hrest1 (c : Dev nD) : ∀ b, b ∉ Finset.univ.image (Pipeline.arrRef spec1) → W3r m ρ c b = W2r m ρ c b :=
  fun b hb => W3_of_ne m ρ c b fun w e => hb (Finset.mem_image.mpr ⟨w, Finset.mem_univ _, e⟩)
/-- After the final reshape: what the program returns with. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (W0r m ρ) c
  | ⟨1, _⟩ => fun c => dat1 (W2r m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- What rides along ends owing nothing. -/
theorem R_owes (c : Dev nD) : (R c : sProp 𝕄) ⊢ iprop(∃ W, owes (c : Thread nD τ) (0 : CellTallies nD τ sig Unit) W) := by
  iintro ⟨-, HO⟩; iexact HO
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered with every unscoped buffer at `W0`, left with them at `W1`. Its
    arrays are split out of the unscoped buffers and put back at the contents the pipeline leaves; the generator
    register goes into the region invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (W0r m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (W0r m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (W0r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop(Pipeline.scopedRest spec0 c ∗ ∃ r, prngReg c r) : sProp 𝕄) ⊢ (pdats m ρ 0 c).Φ 0 := by
      have := hin0 (W0r m ρ) c; unfold Pipeline.ΦA at this; exact this
    iintro ⟨Hp, -, Hr⟩
    iapply h1
    isplitl [Hr]; · iexact Hr
    iexact Hp
  hout c := by
    rw [Pipeline.ownSems0_none]
    have h1 : (pdats m ρ 0 c).Φ (Fin.last _) ⊢ (iprop(Pipeline.scopedRest spec0 c ∗ ∃ r, prngReg c r) : sProp 𝕄) := by
      have := hout0 (W0r m ρ) c; unfold Pipeline.ΦA at this; exact this
    iintro HPhi
    ihave H := h1 $$ HPhi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (W0r m ρ c) (W1r m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W2`, left with them at `W3`. Its
    arrays are split out of the unscoped buffers and put back at the contents the pipeline leaves; the generator
    register goes into the region invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (W2r m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (W2r m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (W2r m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (W2r m ρ c) (W3r m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the
    TensorCores terminates, nothing faulting, and every final state has every unscoped buffer at the last boundary's
    contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => StableHlo.held (c : Thread nD τ) (Pipeline.ucRefs τ sig) (W4 m ρ c))
    (hch := ⟨fun _ => .rfl, fun _ => .rfl, fun _ => .rfl, fun _ => .rfl, fun c => sep_mono .rfl (R_owes c)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨Hh, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.KernelIdeal.Kept.lean ====
/-
  The program's arguments end as launched, and the frame claim: each argument array read back through the five
  boundaries of the run to the launch memory.
-/
import proofs.«129056_j47304769798215_2_alg».proof.Proof.KernelIdeal.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- `main_arg0` ends as launched: no host operation writes it, and a region either reads it through an input window or bypasses it. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := W1_of_ne m ρ c main_arg0 (by decide)
    _ = m ((c : Thread nD τ).loc main_arg0) := rfl

/-- `main_arg1` ends as launched: no host operation writes it, and a region either reads it through an input window or bypasses it. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 0).trans (((dat0 (W0r m ρ) c).arrAt_in 0 rfl _).trans (A_eq0 (W0r m ρ) c 0))
    _ = m ((c : Thread nD τ).loc main_arg1) := rfl

/-- `main_arg2` ends as launched: no host operation writes it, and a region either reads it through an input window or bypasses it. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := (W1_arr m ρ c 1).trans (((dat0 (W0r m ρ) c).arrAt_in 1 rfl _).trans (A_eq0 (W0r m ρ) c 1))
    _ = m ((c : Thread nD τ).loc main_arg2) := rfl

/-- `main_arg3` ends as launched: no host operation writes it, and a region either reads it through an input window or bypasses it. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := (W3_arr m ρ c 4).trans (((dat1 (W2r m ρ) c).arrAt_in 4 rfl _).trans (A_eq1 (W2r m ρ) c 4))
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl

/-- `main_arg4` ends as launched: no host operation writes it, and a region either reads it through an input window or bypasses it. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := StableHlo.after_of_writes_sub hostOps2 _ hostOps2_writes (by decide)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl

/-- `main_arg5` ends as launched: no host operation writes it, and a region either reads it through an input window or bypasses it. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := StableHlo.after_of_writes_sub hostOps2 _ hostOps2_writes (by decide)
    _ = W2 m ρ c (Proc.devRef .tc main_arg5) := W3_of_ne m ρ c main_arg5 (by decide)
    _ = W1 m ρ c (Proc.devRef .tc main_arg5) := StableHlo.after_of_writes_sub hostOps1 _ hostOps1_writes (by decide)
    _ = W0 m ρ c (Proc.devRef .tc main_arg5) := W1_of_ne m ρ c main_arg5 (by decide)
    _ = m ((c : Thread nD τ).loc main_arg5) := rfl

/-- `main_arg6` ends as launched: no host operation writes it, and a region either reads it through an input window or bypasses it. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := StableHlo.after_of_writes_sub hostOps2 _ hostOps2_writes (by decide)
    _ = W2 m ρ c (Proc.devRef .tc main_arg6) := W3_of_ne m ρ c main_arg6 (by decide)
    _ = W1 m ρ c (Proc.devRef .tc main_arg6) := StableHlo.after_of_writes_sub hostOps1 _ hostOps1_writes (by decide)
    _ = W0 m ρ c (Proc.devRef .tc main_arg6) := (W1_arr m ρ c 2).trans (((dat0 (W0r m ρ) c).arrAt_in 2 rfl _).trans (A_eq0 (W0r m ρ) c 2))
    _ = m ((c : Thread nD τ).loc main_arg6) := rfl

/-- THE FRAME: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.KernelIdeal.Hand

end
-- ==== Proof.KernelIdeal.Region0Pieces.lean ====
/-
  The first region's cases read as values: the accumulator after a point is the block product added to what it held
  (to zeros at k = 0), and the output block's staging buffer at k = 3 is the new accumulator times the mask block —
  each the kernel's own payload term applied to the blocks, for any float instance.
-/
import proofs.«129056_j47304769798215_2_alg».proof.Proof.KernelIdeal.Region0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz0 : (![0, 0] : Fin 2 → Nat) = fun _ => 0 := funext fun a => by fin_cases a <;> rfl

/-- At k = 1, 2: the accumulator ends at the payload of the two factor blocks and what it held. -/
theorem sout0_B_eq (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : ¬cond0_0 i) (hc1 : ¬cond0_1 i)
    (x0 x1 xs0 : Vec F S512x512 .f32) : sout0_B c i arg3 harg3 arg4 harg4 arg5 harg5 arg6 harg6 arg7 harg7 hc0 hc1 x0 x1 xs0 = k0_pay2 x0 x1 xs0 := by
  unfold sout0_B
  rw [View.read_writes_eq_canon _ _ _ (scover0_B c i arg3 harg3 arg4 harg4 arg5 harg5 arg6 harg6 arg7 harg7 hc0 hc1 x0 x1 xs0)]
  unfold kernelRun0_B; dsimp only
  sl_unfold_words
  rw [View.canon_unit_zero hz0]
  simp only [View.readAt_eq_ld, harg3.read_unread, harg4.read_unread, harg7.read_unread, View.ld_unit_zero (S := S512x512) hz0]

/-- At k = 0: the accumulator ends at the payload of the two factor blocks and the zero block it was reset to. -/
theorem sout0_A_eq (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : cond0_0 i) (hc1 : ¬cond0_1 i)
    (x0 x1 : Vec F S512x512 .f32) : sout0_A c i arg3 harg3 arg4 harg4 arg5 harg5 arg6 harg6 arg7 harg7 hc0 hc1 x0 x1 = k0_pay2 x0 x1 (k0_pay1 (F := F)) := by
  unfold sout0_A
  rw [View.read_writes_eq_canon _ _ _ (scover0_A c i arg3 harg3 arg4 harg4 arg5 harg5 arg6 harg6 arg7 harg7 hc0 hc1 x0 x1)]
  unfold kernelRun0_A; dsimp only
  sl_unfold_words
  rw [View.canon_cons_unit_zero hz0, View.readCov_unit_zero _ hz0]
  simp only [View.readAt_eq_ld, harg3.read_unread, harg4.read_unread, View.ld_unit_zero (S := S512x512) hz0]

/-- At k = 3 the accumulator ends as at k = 1, 2. -/
theorem sout0_C_eq (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : ¬cond0_0 i) (hc1 : cond0_1 i)
    (x0 x1 x2 xs0 : Vec F S512x512 .f32) : sout0_C c i arg3 harg3 arg4 harg4 arg5 harg5 arg6 harg6 arg7 harg7 hc0 hc1 x0 x1 x2 xs0 = k0_pay2 x0 x1 xs0 := by
  unfold sout0_C
  rw [View.read_writes_eq_canon _ _ _ (scover0_C c i arg3 harg3 arg4 harg4 arg5 harg5 arg6 harg6 arg7 harg7 hc0 hc1 x0 x1 x2 xs0)]
  unfold kernelRun0_C; dsimp only
  sl_unfold_words
  rw [View.canon_unit_zero hz0]
  simp only [View.readAt_eq_ld, harg3.read_unread, harg4.read_unread, harg7.read_unread, View.ld_unit_zero (S := S512x512) hz0]

/-- At k = 3 the output block's staging buffer ends at the masking payload of the new accumulator and the mask block. -/
theorem out0_C_3_eq (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .bf16) (harg6 : arg6.IsWhole) (arg7 : Memref sig .tc .vmem S512x512 .f32) (harg7 : arg7.IsWhole) (hc0 : ¬cond0_0 i) (hc1 : cond0_1 i)
    (x0 x1 x2 xs0 : Vec F S512x512 .f32) : out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C; dsimp only
  sl_unfold_words
  rw [View.canon_unit_zero hz0, View.readCov_unit_zero _ hz0]
  simp only [View.readAt_eq_ld, harg3.read_unread, harg4.read_unread, harg5.read_unread, harg7.read_unread, View.ld_unit_zero (S := S512x512) hz0]

end Cert.KernelIdeal.Hand

end
-- ==== Proof.Spec.lean ====
/-
  The function both programs compute, over the extended reals, written row by row.

  For one row `xr` of the input (2048 features) the result at output feature `o` is

      g · (∑ᵢ xr i · A o i) + (1 − g) · (∑ᵣ (∑ᵢ xr i · P r i) · Q o r) + bias o,
      g = 1 / (1 + exp (−((∑ᵢ xr i · gw i) + gb))),

  where `A o i = (∑ₖ W1 o k · W2 k i) · mask o i` is the masked product of the two weight matrices, `P` the first 204
  rows of `W2` and `Q` the first 204 columns of `W1`. Nothing here mentions a program: the row is a function
  `Fin 2048 → EReal`, so the same term serves an input laid out as [4, 4096, 2048] and as [16384, 2048].
-/
import Idealize.ShloMosaic.PureOps.Ideal
import Idealize.ShloMosaic.Lib.ValueIdx

noncomputable section

open scoped BigOperators

namespace Cert.GatedSpec

open Idealize.ShloMosaic Idealize.ShloMosaic.ValueIdx

/-- The masked product of the weight matrices at row `o`, column `i`: `(∑ₖ W1 o k · W2 k i) · mask o i`. -/
def attn (W1 W2 mask : Fin 2048 → Fin 2048 → EReal) (o i : Fin 2048) : EReal :=
  (∑ k : Fin 2048, W1 o k * W2 k i) * mask o i

/-- The gate of a row: the logistic function of the row's inner product with the gate weights plus the gate bias. -/
def gate (xr gw : Fin 2048 → EReal) (gb : EReal) : EReal :=
  Ideal.logistic ((∑ i : Fin 2048, xr i * gw i) + gb)

/-- The row's result at output feature `o`: the gate times the masked path, plus one minus the gate times the
    rank-204 path, plus the bias. -/
def rowOut (xr : Fin 2048 → EReal) (A : Fin 2048 → Fin 2048 → EReal) (P : Fin 204 → Fin 2048 → EReal)
    (Q : Fin 2048 → Fin 204 → EReal) (gw : Fin 2048 → EReal) (gb : EReal) (bias : Fin 2048 → EReal) (o : Fin 2048) : EReal :=
  gate xr gw gb * (∑ i : Fin 2048, xr i * A o i)
    + (1 - gate xr gw gb) * (∑ r : Fin 204, (∑ i : Fin 2048, xr i * P r i) * Q o r)
    + bias o

/-- The binary32 word of one denotes the real number one. -/
theorem ofBits_one : Ideal.ofBits .f32 0x3F800000#32 = 1 := by
  simp [Ideal.ofBits, Ideal.ieee, -EReal.coe_mul]; norm_num

/-- A sum over 2048 terms is the sum of its four consecutive stretches of 512 terms. -/
theorem sum_blocks (f : Fin 2048 → EReal) :
    ∑ k : Fin 2048, f k
      = ∑ kb : Fin 4, ∑ kk : Fin 512, f ⟨512 * kb.val + kk.val, by have := kb.isLt; have := kk.isLt; omega⟩ := by
  rw [← Finset.sum_product', Finset.univ_product_univ]
  exact (Fintype.sum_equiv (finProdFinEquiv (m := 4) (n := 512))
    (fun p : Fin 4 × Fin 512 => f ⟨512 * p.1.val + p.2.val, by have := p.1.isLt; have := p.2.isLt; omega⟩) f
    (fun p => congrArg f (Fin.ext (by simp [finProdFinEquiv]; omega)))).symm

end Cert.GatedSpec

end
-- ==== Proof.LibPlainDot.lean ====
/-
  A plain matrix product read at an index.

  For dimension numbers `D` of a product of an `M × K` operand with a `K × N` operand into `M × N` that contract
  ONE axis — the left operand's second against the right operand's first, no batch axis — the sum over `D`'s
  contraction index that the ideal instance gives for a `tpu.matmul` into a zero accumulator and for a host
  `dot_general` alike is the textbook one: entry `(r, c)` is the sum over `k : Fin K` of the left operand at `(r, k)`
  times the right operand at `(k, c)`.  What makes a given `D` plain is stated as four facts about the coordinates
  of its operand indices, which a concrete record proves by unfolding its lists of axes.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

/-- The contraction sum of a plain product, re-indexed by the contracted axis' coordinate: at the output index `j`
    the left operand is read along row `j 0` and the right operand along column `j 1`. -/
theorem sum_plain {M K N : Nat}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 k (j 1) := funext fun a => Fin.ext (by
    match a with
    | ⟨0, _⟩ => exact (r0 _ _).trans hk
    | ⟨1, _⟩ => exact r1 _ _)
  exact congrArg₂ (fun a b : EReal => a * b) (congrArg l el) (congrArg r er)

/-- A `tpu.matmul` with plain dimension numbers into the zero accumulator, at the ideal instance, is that sum. -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 k (j 1)) := by
  rw [Ideal.matmul_constant_zero_apply]
  exact sum_plain D hr hs l0 l1 r0 r1 l r j

/-- A host `dot_general` with plain dimension numbers, at the ideal instance, is the same sum, whatever its
    precision and schedule keys. -/
theorem dotGeneral_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (q ⟨0, by omega⟩).val)
    (r1 : ∀ (j : (⟨2, ![M, N]⟩ : Shape).Idx) (q : D.contr.Idx), (D.rhsIdx j q 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral D prec sched l r j = ∑ k : Fin K, l (ix2 (j 0) k) * r (ix2 k (j 1)) := by
  rw [Ideal.dotGeneral_apply]
  exact sum_plain D hr hs l0 l1 r0 r1 l r j

end Cert.Lib.PlainDot

end
-- ==== Proof.KernelIdeal.Region0Value.lean ====
/-
  What the first region leaves in its output array, at the ideal instance: the masked product of the two weight
  matrices. The accumulator after the point with block coordinates (ob, ib, kb) holds, at (p, q), the sum over the
  blocks kb' ≤ kb of the contracted axis of the block products ∑ₖₖ W1(512·ob + p, 512·kb' + kk) · W2(512·kb' + kk, 512·ib + q)
  (induction on the point: k = 0 resets, every point adds its block product). At kb = 3 the four block sums are the
  whole contraction, and the stored block is that times the mask block; those points' blocks tile the array.
-/
import proofs.«129056_j47304769798215_2_alg».proof.Proof.KernelIdeal.Region0Pieces
import proofs.«129056_j47304769798215_2_alg».proof.Proof.Spec
import proofs.«129056_j47304769798215_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators

/-! ## The payloads at an index -/

theorem dot0_l0 (j : S512x512.Idx) (q : dot_S512x512_S512x512_S512x512_1_0_0_1_n_n.contr.Idx) : (dot_S512x512_S512x512_S512x512_1_0_0_1_n_n.lhsIdx j q 0).val = (j 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem dot0_l1 (j : S512x512.Idx) (q : dot_S512x512_S512x512_S512x512_1_0_0_1_n_n.contr.Idx) : (dot_S512x512_S512x512_S512x512_1_0_0_1_n_n.lhsIdx j q 1).val = (q ⟨0, by decide⟩).val :=
  dot_S512x512_S512x512_S512x512_1_0_0_1_n_n.lhsIdx_val_of_single rfl j q
theorem dot0_r0 (j : S512x512.Idx) (q : dot_S512x512_S512x512_S512x512_1_0_0_1_n_n.contr.Idx) : (dot_S512x512_S512x512_S512x512_1_0_0_1_n_n.rhsIdx j q 0).val = (q ⟨0, by decide⟩).val :=
  dot_S512x512_S512x512_S512x512_1_0_0_1_n_n.rhsIdx_val_of_single rfl j q
theorem dot0_r1 (j : S512x512.Idx) (q : dot_S512x512_S512x512_S512x512_1_0_0_1_n_n.contr.Idx) : (dot_S512x512_S512x512_S512x512_1_0_0_1_n_n.rhsIdx j q 1).val = (j 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The reset payload is zero everywhere. -/
theorem reset_apply (j : S512x512.Idx) : k0_pay1 (F := Ideal) j = 0 := by
  unfold k0_pay1
  rw [shapeCast_self]
  exact Ideal.ofBits_zero_f32

/-- The accumulating payload at (p, q): what the accumulator held there plus the row-by-column product of the blocks. -/
theorem accum_apply (x0 x1 xs : Vec Ideal S512x512 .f32) (p q : Fin 512) :
    k0_pay2 x0 x1 xs (ix2 p q) = xs (ix2 p q) + ∑ kk : Fin 512, x0 (ix2 p kk) * x1 (ix2 kk q) := by
  unfold k0_pay2
  rw [shapeCast_self]
  refine (addf_apply _ _ _).trans (congrArg (xs (ix2 p q) + ·) ?_)
  exact Cert.Lib.PlainDot.matmul_zero_apply dot_S512x512_S512x512_S512x512_1_0_0_1_n_n rfl rfl dot0_l0 dot0_l1 dot0_r0 dot0_r1 none _ _ (ix2 p q)

/-- The masking payload at an index: the product of the two entries. -/
theorem masking_apply (a x2 : Vec Ideal S512x512 .f32) (j : S512x512.Idx) : k0_pay3 a x2 j = a j * x2 j := rfl

/-! ## The arrays on natural-number coordinates, and a block product -/

/-- A [2048, 2048] array read at natural-number coordinates (zero outside the array: never consulted). -/
def ext2 (A : S2048x2048.Idx → EReal) (r k : ℕ) : EReal :=
  if h : r < 2048 ∧ k < 2048 then A (ix2 ⟨r, h.1⟩ ⟨k, h.2⟩) else 0
theorem ext2_of_lt (A : S2048x2048.Idx → EReal) {r k : ℕ} (hr : r < 2048) (hk : k < 2048) :
    ext2 A r k = A (ix2 ⟨r, hr⟩ ⟨k, hk⟩) := dif_pos ⟨hr, hk⟩

/-- The product of block (ob, kb) of the first matrix with block (kb, ib) of the second, at (p, q). -/
def blockProd (A1 A2 : S2048x2048.Idx → EReal) (ob ib kb : ℕ) (p q : Fin 512) : EReal :=
  ∑ kk : Fin 512, ext2 A1 (512 * ob + p.val) (512 * kb + kk.val) * ext2 A2 (512 * kb + kk.val) (512 * ib + q.val)

/-! ## The grid: which blocks a point sees -/

theorem idx_facts0 : ∀ t : Fin cfg0.N, win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

variable (V : (c : Dev nD) → (b : Ref sig .tc) → Buf (Elt Ideal) ((c : Thread nD τ).loc b))

/-- The first matrix's block at point `t`, read at (p, kk). -/
theorem blk0_read (c : Dev nD) (t : Fin cfg0.N) (p kk : Fin 512) :
    iblk0 V c 0 t (ix2 p kk) = ext2 (V c main_arg1) (512 * (t.val / 16) + p.val) (512 * (t.val % 4) + kk.val) := by
  obtain ⟨e0, e1, -⟩ := idx_facts0 t
  have ht : t.val < 64 := lt_of_lt_of_eq t.isLt (show cfg0.N = 64 from N_0)
  rw [ext2_of_lt _ (by omega) (by omega)]
  show V c main_arg1 (((cfg0.win 0).blk t).view.emb (ix2 p kk)) = V c main_arg1 _
  refine congrArg _ (funext fun a => Fin.ext ?_)
  match a with
  | ⟨0, _⟩ => show win0_0.index t (0 : Fin 2) * 512 + 1 * p.val = 512 * (t.val / 16) + p.val; omega
  | ⟨1, _⟩ => show win0_0.index t (1 : Fin 2) * 512 + 1 * kk.val = 512 * (t.val % 4) + kk.val; omega

/-- The second matrix's block at point `t`, read at (kk, q). -/
theorem blk1_read (c : Dev nD) (t : Fin cfg0.N) (kk q : Fin 512) :
    iblk0 V c 1 t (ix2 kk q) = ext2 (V c main_arg2) (512 * (t.val % 4) + kk.val) (512 * (t.val / 4 % 4) + q.val) := by
  obtain ⟨-, -, e0, e1, -⟩ := idx_facts0 t
  have ht : t.val < 64 := lt_of_lt_of_eq t.isLt (show cfg0.N = 64 from N_0)
  rw [ext2_of_lt _ (by omega) (by omega)]
  show V c main_arg2 (((cfg0.win 1).blk t).view.emb (ix2 kk q)) = V c main_arg2 _
  refine congrArg _ (funext fun a => Fin.ext ?_)
  match a with
  | ⟨0, _⟩ => show win0_1.index t (0 : Fin 2) * 512 + 1 * kk.val = 512 * (t.val % 4) + kk.val; omega
  | ⟨1, _⟩ => show win0_1.index t (1 : Fin 2) * 512 + 1 * q.val = 512 * (t.val / 4 % 4) + q.val; omega

/-- The mask's block at point `t`, read at (p, q). -/
theorem blk2_read (c : Dev nD) (t : Fin cfg0.N) (p q : Fin 512) :
    iblk0 V c 2 t (ix2 p q) = ext2 (V c main_arg6) (512 * (t.val / 16) + p.val) (512 * (t.val / 4 % 4) + q.val) := by
  obtain ⟨-, -, -, -, e0, e1, -⟩ := idx_facts0 t
  have ht : t.val < 64 := lt_of_lt_of_eq t.isLt (show cfg0.N = 64 from N_0)
  rw [ext2_of_lt _ (by omega) (by omega)]
  show V c main_arg6 (((cfg0.win 2).blk t).view.emb (ix2 p q)) = V c main_arg6 _
  refine congrArg _ (funext fun a => Fin.ext ?_)
  match a with
  | ⟨0, _⟩ => show win0_2.index t (0 : Fin 2) * 512 + 1 * p.val = 512 * (t.val / 16) + p.val; omega
  | ⟨1, _⟩ => show win0_2.index t (1 : Fin 2) * 512 + 1 * q.val = 512 * (t.val / 4 % 4) + q.val; omega

/-- The product of the two blocks a point sees is the block product at the point's block coordinates. -/
theorem prod_read (c : Dev nD) (t : Fin cfg0.N) (p q : Fin 512) (x0 x1 : S512x512.Idx → EReal)
    (h0 : x0 = iblk0 V c 0 t) (h1 : x1 = iblk0 V c 1 t) :
    ∑ kk : Fin 512, x0 (ix2 p kk) * x1 (ix2 kk q)
      = blockProd (V c main_arg1) (V c main_arg2) (t.val / 16) (t.val / 4 % 4) (t.val % 4) p q := by
  subst h0 h1
  unfold blockProd
  exact Finset.sum_congr rfl fun kk _ => by rw [blk0_read, blk1_read]

/-! ## The accumulator after every point -/

/-- After the point `n` the accumulator holds the sum of the block products over the blocks 0 … n mod 4 of the
    contracted axis, at the point's output block. -/
theorem acc_inv (c : Dev nD) : ∀ (n : ℕ) (hn : n < cfg0.N) (p q : Fin 512),
    accAt0 V c n hn (ix2 p q)
      = ∑ kb ∈ Finset.range (n % 4 + 1), blockProd (V c main_arg1) (V c main_arg2) (n / 16) (n / 4 % 4) kb p q := by
  intro n
  induction n with
  | zero =>
    intro hn p q
    have hA := accAt0_A V c ⟨0, hn⟩ (Nat.zero_mod 4) (by show ¬ (0 : ℕ) % 4 = 3; omega)
    rw [show accAt0 V c 0 hn = accAt0 V c (⟨0, hn⟩ : Fin cfg0.N).val (⟨0, hn⟩ : Fin cfg0.N).isLt from rfl, hA, sout0_A_eq,
      accum_apply, reset_apply, zero_add, prod_read V c _ p q _ _ rfl rfl]
    simp
  | succ n ih =>
    intro hn p q
    have hN : n + 1 < 64 := lt_of_lt_of_eq hn (show cfg0.N = 64 from N_0)
    by_cases h0 : (n + 1) % 4 = 0
    · have hA := accAt0_A V c ⟨n + 1, hn⟩ h0 (by show ¬ (n + 1) % 4 = 3; omega)
      rw [show accAt0 V c (n + 1) hn = accAt0 V c (⟨n + 1, hn⟩ : Fin cfg0.N).val (⟨n + 1, hn⟩ : Fin cfg0.N).isLt from rfl, hA, sout0_A_eq,
        accum_apply, reset_apply, zero_add, prod_read V c _ p q _ _ rfl rfl]
      show blockProd _ _ ((n + 1) / 16) ((n + 1) / 4 % 4) ((n + 1) % 4) p q = _
      rw [h0]; simp
    · have hkb : (n + 1) % 4 = n % 4 + 1 := by omega
      have hob : (n + 1) / 16 = n / 16 := by omega
      have hib : (n + 1) / 4 % 4 = n / 4 % 4 := by omega
      have hprev := ih (Nat.lt_of_succ_lt hn) p q
      have hstep : accAt0 V c (n + 1) hn (ix2 p q)
          = accAt0 V c n (Nat.lt_of_succ_lt hn) (ix2 p q) + blockProd (V c main_arg1) (V c main_arg2) ((n + 1) / 16) ((n + 1) / 4 % 4) ((n + 1) % 4) p q := by
        by_cases h1 : (n + 1) % 4 = 3
        · have hC := accAt0_C V c ⟨n + 1, hn⟩ h0 h1
          rw [show accAt0 V c (n + 1) hn = accAt0 V c (⟨n + 1, hn⟩ : Fin cfg0.N).val (⟨n + 1, hn⟩ : Fin cfg0.N).isLt from rfl, hC, sout0_C_eq,
            accum_apply, prod_read V c _ p q _ _ rfl rfl]
          rfl
        · have hB := accAt0_B V c ⟨n + 1, hn⟩ h0 h1
          rw [show accAt0 V c (n + 1) hn = accAt0 V c (⟨n + 1, hn⟩ : Fin cfg0.N).val (⟨n + 1, hn⟩ : Fin cfg0.N).isLt from rfl, hB, sout0_B_eq,
            accum_apply, prod_read V c _ p q _ _ rfl rfl]
          rfl
      rw [hstep, hprev, hob, hib, hkb]
      exact (Finset.sum_range_succ _ (n % 4 + 1)).symm

/-! ## What a point with k = 3 writes back, and the final array -/

/-- The first region's result as one function of the three argument arrays: the masked product. -/
def G0 (c : Dev nD) : S2048x2048.Idx → EReal := fun j =>
  Cert.GatedSpec.attn (fun o k => V c main_arg1 (ix2 o k)) (fun k i => V c main_arg2 (ix2 k i)) (fun o i => V c main_arg6 (ix2 o i)) (j 0) (j 1)

/-- At a point with k = 3 the output block's staging buffer is the masking payload of the accumulator as it stands
    after the point. -/
theorem outAt0_flush (c : Dev nD) (t : Fin cfg0.N) (h3 : t.val % 4 = 3) :
    outAt0 V c t = k0_pay3 (accAt0 V c t.val t.isLt) (iblk0 V c 2 t) := by
  have h0 : ¬t.val % 4 = 0 := by omega
  rw [outAt0_C V c t h0 h3, out0_C_3_eq, accAt0_C V c t h0 h3, sout0_C_eq]

/-- The four block sums are the whole contraction. -/
theorem blocks_total (A1 A2 : S2048x2048.Idx → EReal) (o i : Fin 2048) :
    ∑ kb ∈ Finset.range 4, blockProd A1 A2 (o.val / 512) (i.val / 512) kb ⟨o.val % 512, Nat.mod_lt _ (by decide)⟩ ⟨i.val % 512, Nat.mod_lt _ (by decide)⟩
      = ∑ k : Fin 2048, A1 (ix2 o k) * A2 (ix2 k i) := by
  rw [Cert.GatedSpec.sum_blocks, ← Fin.sum_univ_eq_sum_range (fun kb => blockProd A1 A2 (o.val / 512) (i.val / 512) kb ⟨o.val % 512, Nat.mod_lt _ (by decide)⟩ ⟨i.val % 512, Nat.mod_lt _ (by decide)⟩) 4]
  refine Finset.sum_congr rfl fun kb _ => ?_
  unfold blockProd
  refine Finset.sum_congr rfl fun kk _ => ?_
  have ho := o.isLt; have hi := i.isLt; have hkb := kb.isLt; have hkk := kk.isLt
  rw [ext2_of_lt _ (by show 512 * (o.val / 512) + o.val % 512 < 2048; omega) (by show 512 * kb.val + kk.val < 2048; omega),
    ext2_of_lt _ (by show 512 * kb.val + kk.val < 2048; omega) (by show 512 * (i.val / 512) + i.val % 512 < 2048; omega)]
  refine congrArg₂ (fun a b : EReal => a * b) (congrArg A1 ?_) (congrArg A2 ?_)
  · refine funext fun a => Fin.ext ?_
    match a with
    | ⟨0, _⟩ => show 512 * (o.val / 512) + o.val % 512 = o.val; omega
    | ⟨1, _⟩ => rfl
  · refine funext fun a => Fin.ext ?_
    match a with
    | ⟨0, _⟩ => rfl
    | ⟨1, _⟩ => show 512 * (i.val / 512) + i.val % 512 = i.val; omega

/-- WHAT A POINT WITH k = 3 WRITES BACK is its block of the masked product. -/
theorem flushed3_eq (c : Dev nD) (t : Fin cfg0.N) (hf : (cfg0.win 3).flush t = true) :
    (dat0 V c).flushed 3 t = ((cfg0.win 3).blk t).view.read (Elt Ideal) (G0 V c) := by
  have h3 : t.val % 4 = 3 := (flush0_3 t).mp hf
  have ht : t.val < 64 := lt_of_lt_of_eq t.isLt (show cfg0.N = 64 from N_0)
  obtain ⟨-, -, -, -, -, -, e0, e1⟩ := idx_facts0 t
  show (cfg0.win 3).cut (grid0.coords t) ((dat0 V c).after 3 t) = _
  rw [after0_3, outAt0_flush V c t h3]
  funext y
  obtain ⟨p, q, rfl⟩ : ∃ (p q : Fin 512), y = ix2 p q := ⟨y 0, y 1, eq_ix2 y⟩
  show k0_pay3 (accAt0 V c t.val t.isLt) (iblk0 V c 2 t) (ix2 p q) = G0 V c (((cfg0.win 3).blk t).view.emb (ix2 p q))
  have hemb : ((cfg0.win 3).blk t).view.emb (ix2 p q)
      = ix2 (⟨512 * (t.val / 16) + p.val, by omega⟩ : Fin 2048) (⟨512 * (t.val / 4 % 4) + q.val, by omega⟩ : Fin 2048) := by
    refine funext fun a => Fin.ext ?_
    match a with
    | ⟨0, _⟩ => show win0_3.index t (0 : Fin 2) * 512 + 1 * p.val = 512 * (t.val / 16) + p.val; omega
    | ⟨1, _⟩ => show win0_3.index t (1 : Fin 2) * 512 + 1 * q.val = 512 * (t.val / 4 % 4) + q.val; omega
  rw [hemb, masking_apply, acc_inv V c t.val t.isLt p q, blk2_read, h3]
  unfold G0 Cert.GatedSpec.attn
  have hp := p.isLt; have hq := q.isLt
  rw [ext2_of_lt _ (by omega) (by omega)]
  refine congrArg₂ (fun a b : EReal => a * b) ?_ rfl
  have hb := blocks_total (V c main_arg1) (V c main_arg2) (⟨512 * (t.val / 16) + p.val, by omega⟩ : Fin 2048) (⟨512 * (t.val / 4 % 4) + q.val, by omega⟩ : Fin 2048)
  refine Eq.trans ?_ hb
  refine Finset.sum_congr rfl fun kb _ => ?_
  have e1' : (512 * (t.val / 16) + p.val) / 512 = t.val / 16 := by omega
  have e2' : (512 * (t.val / 4 % 4) + q.val) / 512 = t.val / 4 % 4 := by omega
  have e3' : (⟨(512 * (t.val / 16) + p.val) % 512, Nat.mod_lt _ (by decide)⟩ : Fin 512) = p := Fin.ext (by show (512 * (t.val / 16) + p.val) % 512 = p.val; omega)
  have e4' : (⟨(512 * (t.val / 4 % 4) + q.val) % 512, Nat.mod_lt _ (by decide)⟩ : Fin 512) = q := Fin.ext (by show (512 * (t.val / 4 % 4) + q.val) % 512 = q.val; omega)
  show blockProd _ _ (t.val / 16) (t.val / 4 % 4) kb p q = blockProd _ _ ((512 * (t.val / 16) + p.val) / 512) ((512 * (t.val / 4 % 4) + q.val) / 512) kb ⟨(512 * (t.val / 16) + p.val) % 512, _⟩ ⟨(512 * (t.val / 4 % 4) + q.val) % 512, _⟩
  rw [e1', e2', e3', e4']

/-- An index of the array is in point `t`'s block iff each coordinate is in the block's range on its axis. -/
theorem mem_blk3 (t : Fin cfg0.N) (i : S2048x2048.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v0).slice (win0_3.rect t)).set ↔ _
  rw [View.set_slice_whole, Rect.mem_set_unit]
  exact Iff.rfl

/-- Every index of the array lies in the block of a point with k = 3. -/
theorem cover3 (i : S2048x2048.Idx) : ∃ t : Fin cfg0.N, (cfg0.win 3).flush t = true ∧ i ∈ ((cfg0.win 3).blk t).view.set := by
  have hi0 : (i 0).val < 2048 := (i 0).isLt
  have hi1 : (i 1).val < 2048 := (i 1).isLt
  have hN : cfg0.N = 64 := N_0
  let t : Fin cfg0.N := ⟨16 * ((i 0).val / 512) + 4 * ((i 1).val / 512) + 3, by rw [hN]; omega⟩
  have htv : t.val = 16 * ((i 0).val / 512) + 4 * ((i 1).val / 512) + 3 := rfl
  obtain ⟨-, -, -, -, -, -, e0, e1⟩ := idx_facts0 t
  refine ⟨t, (flush0_3 t).mpr (by rw [htv]; omega), ?_⟩
  rw [mem_blk3]
  intro a
  match a with
  | ⟨0, _⟩ => show win0_3.index t (0 : Fin 2) * 512 ≤ (i 0).val ∧ (i 0).val < win0_3.index t (0 : Fin 2) * 512 + 512; rw [e0, htv]; omega
  | ⟨1, _⟩ => show win0_3.index t (1 : Fin 2) * 512 ≤ (i 1).val ∧ (i 1).val < win0_3.index t (1 : Fin 2) * 512 + 512; rw [e1, htv]; omega

/-- THE ARRAY after the region: the masked product of the two weight matrices. -/
theorem final0 (c : Dev nD) : (dat0 V c).arrAt 3 cfg0.N = G0 V c :=
  (dat0 V c).arrAt_eq_of_cover 3 (G0 V c) (fun t hf => flushed3_eq V c t hf) (cover3)

end Cert.KernelIdeal.Hand

end
-- ==== Proof.LibDotNT.lean ====
/-
  A matrix product against a transposed right operand, read at an index.

  For dimension numbers `D` of a product of an `M × K` operand with an `N × K` operand into `M × N` that contract ONE
  axis — the second axis of each operand, no batch axis (`x · wᵀ`) — the sum over `D`'s contraction index that the ideal
  instance gives for a `tpu.matmul` and for a host `dot_general` alike is the textbook one: entry `(r, c)` is the sum over
  `k : Fin K` of the left operand at `(r, k)` times the right operand at `(c, k)`.  What makes a given `D` of this kind is
  stated as four facts about the coordinates of its operand indices, which a concrete record proves by unfolding its
  lists of axes.
-/
import Idealize.ShloMosaic.Lib.ValueIdx
import Idealize.ShloMosaic.PureOps.Ideal.Laws

noncomputable section

open scoped BigOperators

namespace Cert.Lib.DotNT

open Idealize.ShloMosaic Idealize.ShloMosaic.ValueIdx

/-- The contraction sum re-indexed by the contracted axis' coordinate: at the output index `j` the left operand is
    read along its row `j 0` and the right operand along its row `j 1`. -/
theorem sum_nt {M K N : Nat}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (l : (⟨2, ![M, K]⟩ : Shape).Idx → EReal) (r : (⟨2, ![N, K]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact l0 _ _
    | ⟨1, _⟩ => exact (l1 _ _).trans hk)
  have er : D.rhsIdx j ((contrEquiv1 D K hr hs).symm k) = ix2 (j 1) k := funext fun a => Fin.ext (by
    match a with
    | ⟨0, _⟩ => exact r0 _ _
    | ⟨1, _⟩ => exact (r1 _ _).trans hk)
  exact congrArg₂ (fun a b : EReal => a * b) (congrArg l el) (congrArg r er)

/-- A `tpu.matmul` with such dimension numbers, at the ideal instance: the accumulator's entry plus that sum. -/
theorem matmul_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision)
    (l : FVec Ideal (⟨2, ![M, K]⟩ : Shape) φ₁) (r : FVec Ideal (⟨2, ![N, K]⟩ : Shape) φ₂)
    (acc : FVec Ideal (⟨2, ![M, N]⟩ : Shape) .f32) (j : (⟨2, ![M, N]⟩ : Shape).Idx) :
    FloatOps.matmul D prec l r acc j = acc j + ∑ k : Fin K, l (ix2 (j 0) k) * r (ix2 (j 1) k) := by
  rw [Ideal.matmul_apply]
  exact congrArg (acc j + ·) (sum_nt D hr hs l0 l1 r0 r1 l r j)

/-- Into the zero accumulator: just the sum. -/
theorem matmul_zero_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision)
    (l : FVec Ideal (⟨2, ![M, K]⟩ : Shape) φ₁) (r : FVec Ideal (⟨2, ![N, K]⟩ : Shape) φ₂)
    (j : (⟨2, ![M, N]⟩ : Shape).Idx) :
    FloatOps.matmul D prec l r (constant (⟨2, ![M, N]⟩ : Shape) .f32 0x00000000#32) j
      = ∑ k : Fin K, l (ix2 (j 0) k) * r (ix2 (j 1) k) := by
  rw [Ideal.matmul_constant_zero_apply]
  exact sum_nt D hr hs l0 l1 r0 r1 l r j

/-- A host `dot_general` with such dimension numbers, at the ideal instance, is the same sum, whatever its precision
    and schedule keys. -/
theorem dotGeneral_apply {M K N : Nat} {φ₁ φ₂ : FTy}
    (D : DotDims (⟨2, ![M, K]⟩ : Shape) (⟨2, ![N, K]⟩ : Shape) (⟨2, ![M, N]⟩ : Shape))
    (hr : D.contr.rank = 1) (hs : D.contr.size ⟨0, by omega⟩ = K)
    (l0 : ∀ (j : (⟨2, ![M, N]⟩ : Shape).Idx) (q : D.contr.Idx), (D.lhsIdx j q 0).val = (j 0).val)
    (l1 : ∀ (j : (⟨2, ![M, N]⟩ : Shape).Idx) (q : D.contr.Idx), (D.lhsIdx j q 1).val = (q ⟨0, by omega⟩).val)
    (r0 : ∀ (j : (⟨2, ![M, N]⟩ : Shape).Idx) (q : D.contr.Idx), (D.rhsIdx j q 0).val = (j 1).val)
    (r1 : ∀ (j : (⟨2, ![M, N]⟩ : Shape).Idx) (q : D.contr.Idx), (D.rhsIdx j q 1).val = (q ⟨0, by omega⟩).val)
    (prec : Option ContractPrecision) (sched : HostSchedule)
    (l : FVec Ideal (⟨2, ![M, K]⟩ : Shape) φ₁) (r : FVec Ideal (⟨2, ![N, K]⟩ : Shape) φ₂)
    (j : (⟨2, ![M, N]⟩ : Shape).Idx) :
    FloatOps.dotGeneral D prec sched l r j = ∑ k : Fin K, l (ix2 (j 0) k) * r (ix2 (j 1) k) := by
  rw [Ideal.dotGeneral_apply]
  exact sum_nt D hr hs l0 l1 r0 r1 l r j

end Cert.Lib.DotNT

end
-- ==== Proof.LibKeepdims.lean ====
/-
  General lemmas: the "keepdims" column forms of a rank-2 array read at an index.
  A vector of length `n` cast to an `[n, 1]` column, and an `[n, 1]` column broadcast along its unit axis to
  `[n, b]`, each read at an index built with `ix2`; and the index a reduction over the last axis of an `[n, b]`
  array inserts.
-/
import Idealize.ShloMosaic.Lib.ValueIdx
import Idealize.ShloMosaic.Lib.Pipeline.Value
import Idealize.ShloMosaic.Lib.ValueLayout

noncomputable section

namespace Keepdims

open Idealize.ShloMosaic Idealize.ShloMosaic.ValueIdx

variable {α : Type}

/-- An `[n, 1]` column broadcast to `[n, b]` reads, at `(p, j)`, the column at `p`. -/
theorem broadcastTo_a1_ab_apply {n b : ℕ} (v : (⟨2, ![n, 1]⟩ : Shape).Idx → α) (h : (⟨2, ![n, 1]⟩ : Shape).Broadcasts ⟨2, ![n, b]⟩)
    (p : Fin n) (j : Fin b) : broadcastTo ⟨2, ![n, b]⟩ v h (ix2 p j) = v (ix2 p (0 : Fin 1)) := by
  refine broadcastTo_apply v h (ix2 p j) (ix2 p (0 : Fin 1)) fun ax => ?_
  match ax with
  | ⟨0, _⟩ =>
    show p.val = if n = 1 then 0 else p.val
    split
    · have := p.isLt; omega
    · rfl
  | ⟨1, _⟩ => rfl

/-- A length-`n` vector cast to an `[n, 1]` column reads, at `(p, 0)`, the vector at `p`. -/
theorem shapeCast_a_a1_apply {n : ℕ} (v : (⟨1, ![n]⟩ : Shape).Idx → α) (h : (⟨1, ![n]⟩ : Shape).ShapeCasts ⟨2, ![n, 1]⟩)
    (p : Fin n) : shapeCast ⟨2, ![n, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

end Keepdims

end
-- ==== Proof.KernelIdeal.Region1Payload.lean ====
import proofs.«129056_j47304769798215_2_alg».proof.Proof.KernelIdeal.Region1
import proofs.«129056_j47304769798215_2_alg».proof.Proof.Spec
import proofs.«129056_j47304769798215_2_alg».proof.Proof.LibDotNT
import proofs.«129056_j47304769798215_2_alg».proof.Proof.LibKeepdims
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

/-! # The value the second kernel stores, over the extended reals, entry by entry

Over the extended reals every change of number format is the identity, so at row `p`, feature `q` of a block the
stored value is the specification's row function of the block's row `p`:

* the gate is the logistic function of the row's inner product with the gate row, plus the gate offset
  (a sum along the row, kept as a column, then spread back along the features);
* the first path is the row times the transposed attention matrix;
* the second path is the row times the transposed first factor (204 entries), times the transposed second factor;
* the result is gate · first + (1 − gate) · second + bias, the literal one being the real number one.

Each of the three products contracts the second axis of both operands, so its entry `(r, c)` is the sum over `k` of
the left operand at `(r, k)` times the right operand at `(c, k)`. -/

set_option maxRecDepth 16384

noncomputable section

namespace Cert.KernelIdeal.Hand

open Cert.KernelIdeal Cert.KernelIdeal.Gen
open Idealize.ShloMosaic
open Idealize.ShloMosaic.ValueIdx
open scoped BigOperators

/-- A sum along the second axis of a 256 × 2048 array, read at row `p`: the sum of the row's 2048 entries. -/
theorem rowsum_apply (src : FVec Ideal S256x2048 .f32) (h : S256x2048.Reduces [1] S256) (hφ : FKind.Formats .f32)
    (hacc : (0x00000000#32 : BitVec 32) = 0x00000000#32) (p : Fin 256) :
    multiReduction .add [1] S256 src 0x00000000#32 h hφ hacc (ix1 p) = ∑ k : Fin 2048, src (ix2 p k) := by
  refine (Ideal.multiReduction_add_single src 0x00000000#32 h hφ hacc (ix1 p)).trans ?_
  refine Finset.sum_congr rfl fun k _ => congrArg src ?_
  funext a
  match a with
  | ⟨0, _⟩ => rfl
  | ⟨1, _⟩ => rfl

/-! The three products contract the second axis of both operands: entry `(r, c)` sums, over `k`, the left operand at
`(r, k)` times the right operand at `(c, k)`. -/

theorem mm_attn_apply (l : FVec Ideal S256x2048 .bf16) (r : FVec Ideal S2048x2048 .bf16) (p : Fin 256) (q : Fin 2048) :
    matmul dot_S256x2048_S2048x2048_S256x2048_1_1_0_0_n_n none l r (constant S256x2048 .f32 0x00000000#32) (ix2 p q)
      = ∑ k : Fin 2048, l (ix2 p k) * r (ix2 q k) := by
  refine (Cert.Lib.DotNT.matmul_zero_apply (M := 256) (K := 2048) (N := 2048) dot_S256x2048_S2048x2048_S256x2048_1_1_0_0_n_n rfl rfl
    (fun j q' => ?l0) (fun j q' => ?l1) (fun j q' => ?r0) (fun j q' => ?r1) none l r (ix2 p q)).trans rfl
  case l0 =>
    unfold DotDims.lhsIdx
    rw [dif_neg (show ¬(0 : Fin S256x2048.rank) ∈ dot_S256x2048_S2048x2048_S256x2048_1_1_0_0_n_n.lhsBatch by decide), dif_pos (show (0 : Fin S256x2048.rank) ∈ dot_S256x2048_S2048x2048_S256x2048_1_1_0_0_n_n.lhsNonContracting by decide)]
    rfl
  case l1 => exact dot_S256x2048_S2048x2048_S256x2048_1_1_0_0_n_n.lhsIdx_val_of_single rfl j q'
  case r0 =>
    unfold DotDims.rhsIdx
    rw [dif_neg (show ¬(0 : Fin S2048x2048.rank) ∈ dot_S256x2048_S2048x2048_S256x2048_1_1_0_0_n_n.rhsBatch by decide), dif_pos (show (0 : Fin S2048x2048.rank) ∈ dot_S256x2048_S2048x2048_S256x2048_1_1_0_0_n_n.rhsNonContracting by decide)]
    rfl
  case r1 => exact dot_S256x2048_S2048x2048_S256x2048_1_1_0_0_n_n.rhsIdx_val_of_single rfl j q'

theorem mm_p_apply (l : FVec Ideal S256x2048 .bf16) (r : FVec Ideal S204x2048 .bf16) (p : Fin 256) (q : Fin 204) :
    matmul dot_S256x2048_S204x2048_S256x204_1_1_0_0_n_n none l r (constant S256x204 .f32 0x00000000#32) (ix2 p q)
      = ∑ k : Fin 2048, l (ix2 p k) * r (ix2 q k) := by
  refine (Cert.Lib.DotNT.matmul_zero_apply (M := 256) (K := 2048) (N := 204) dot_S256x2048_S204x2048_S256x204_1_1_0_0_n_n rfl rfl
    (fun j q' => ?l0) (fun j q' => ?l1) (fun j q' => ?r0) (fun j q' => ?r1) none l r (ix2 p q)).trans rfl
  case l0 =>
    unfold DotDims.lhsIdx
    rw [dif_neg (show ¬(0 : Fin S256x2048.rank) ∈ dot_S256x2048_S204x2048_S256x204_1_1_0_0_n_n.lhsBatch by decide), dif_pos (show (0 : Fin S256x2048.rank) ∈ dot_S256x2048_S204x2048_S256x204_1_1_0_0_n_n.lhsNonContracting by decide)]
    rfl
  case l1 => exact dot_S256x2048_S204x2048_S256x204_1_1_0_0_n_n.lhsIdx_val_of_single rfl j q'
  case r0 =>
    unfold DotDims.rhsIdx
    rw [dif_neg (show ¬(0 : Fin S204x2048.rank) ∈ dot_S256x2048_S204x2048_S256x204_1_1_0_0_n_n.rhsBatch by decide), dif_pos (show (0 : Fin S204x2048.rank) ∈ dot_S256x2048_S204x2048_S256x204_1_1_0_0_n_n.rhsNonContracting by decide)]
    rfl
  case r1 => exact dot_S256x2048_S204x2048_S256x204_1_1_0_0_n_n.rhsIdx_val_of_single rfl j q'

theorem mm_q_apply (l : FVec Ideal S256x204 .bf16) (r : FVec Ideal S2048x204 .bf16) (p : Fin 256) (q : Fin 2048) :
    matmul dot_S256x204_S2048x204_S256x2048_1_1_0_0_n_n none l r (constant S256x2048 .f32 0x00000000#32) (ix2 p q)
      = ∑ k : Fin 204, l (ix2 p k) * r (ix2 q k) := by
  refine (Cert.Lib.DotNT.matmul_zero_apply (M := 256) (K := 204) (N := 2048) dot_S256x204_S2048x204_S256x2048_1_1_0_0_n_n rfl rfl
    (fun j q' => ?l0) (fun j q' => ?l1) (fun j q' => ?r0) (fun j q' => ?r1) none l r (ix2 p q)).trans rfl
  case l0 =>
    unfold DotDims.lhsIdx
    rw [dif_neg (show ¬(0 : Fin S256x204.rank) ∈ dot_S256x204_S2048x204_S256x2048_1_1_0_0_n_n.lhsBatch by decide), dif_pos (show (0 : Fin S256x204.rank) ∈ dot_S256x204_S2048x204_S256x2048_1_1_0_0_n_n.lhsNonContracting by decide)]
    rfl
  case l1 => exact dot_S256x204_S2048x204_S256x2048_1_1_0_0_n_n.lhsIdx_val_of_single rfl j q'
  case r0 =>
    unfold DotDims.rhsIdx
    rw [dif_neg (show ¬(0 : Fin S2048x204.rank) ∈ dot_S256x204_S2048x204_S256x2048_1_1_0_0_n_n.rhsBatch by decide), dif_pos (show (0 : Fin S2048x204.rank) ∈ dot_S256x204_S2048x204_S256x2048_1_1_0_0_n_n.rhsNonContracting by decide)]
    rfl
  case r1 => exact dot_S256x204_S2048x204_S256x2048_1_1_0_0_n_n.rhsIdx_val_of_single rfl j q'

/-- The gate of row `p`: the logistic function of the row's inner product with the gate row, plus the gate offset. -/
theorem gate_apply (x0 : FVec Ideal S256x2048 .f32) (x4 : FVec Ideal S1x2048 .f32) (x5 : FVec Ideal S1x1 .f32)
    (hφ : FKind.Formats .f32) (hacc : (0x00000000#32 : BitVec 32) = 0x00000000#32) (p : Fin 256) :
    logistic (addf (shapeCast S256x1 (multiReduction .add [1] S256 (mulf x0 (broadcastTo S256x2048 x4 broadcasts_S1x2048_S256x2048))
        0x00000000#32 reduces_S256x2048_S256 hφ hacc) shapeCasts_S256_S256x1) (broadcastTo S256x1 x5 broadcasts_S1x1_S256x1)) (ix2 p (0 : Fin 1))
      = Cert.GatedSpec.gate (fun i => x0 (ix2 p i)) (fun i => x4 (ix2 (0 : Fin 1) i)) (x5 (ix2 (0 : Fin 1) (0 : Fin 1))) := by
  show Ideal.logistic (shapeCast S256x1 (multiReduction .add [1] S256 (mulf x0 (broadcastTo S256x2048 x4 broadcasts_S1x2048_S256x2048))
        0x00000000#32 reduces_S256x2048_S256 hφ hacc) shapeCasts_S256_S256x1 (ix2 p (0 : Fin 1))
      + broadcastTo S256x1 x5 broadcasts_S1x1_S256x1 (ix2 p (0 : Fin 1))) = _
  rw [Keepdims.shapeCast_a_a1_apply, rowsum_apply, broadcastTo_1b_ab_apply]
  unfold Cert.GatedSpec.gate
  refine congrArg Ideal.logistic (congrArg (· + x5 (ix2 (0 : Fin 1) (0 : Fin 1))) (Finset.sum_congr rfl fun k _ => ?_))
  rw [mulf_apply, broadcastTo_1b_ab_apply]

/-- THE STORED VALUE at row `p`, feature `q` of the block: the specification's row function of the block's row `p`. -/
theorem pay1_apply (x0 : Vec Ideal S256x2048 .f32) (x4 : Vec Ideal S1x2048 .f32) (x5 : Vec Ideal S1x1 .f32) (x1 : Vec Ideal S2048x2048 .bf16)
    (x2 : Vec Ideal S204x2048 .bf16) (x3 : Vec Ideal S2048x204 .bf16) (x6 : Vec Ideal S1x2048 .f32) (p : Fin 256) (q : Fin 2048) :
    k1_pay1 (F := Ideal) x0 x4 x5 x1 x2 x3 x6 (ix2 p q)
      = Cert.GatedSpec.rowOut (fun i => x0 (ix2 p i)) (fun o i => x1 (ix2 o i)) (fun r i => x2 (ix2 r i)) (fun o r => x3 (ix2 o r))
          (fun i => x4 (ix2 (0 : Fin 1) i)) (x5 (ix2 (0 : Fin 1) (0 : Fin 1))) (fun o => x6 (ix2 (0 : Fin 1) o)) q := by
  unfold k1_pay1
  simp only [shapeCast_self]
  rw [addf_apply, addf_apply, mulf_apply, mulf_apply, Keepdims.broadcastTo_a1_ab_apply, Keepdims.broadcastTo_a1_ab_apply,
    subf_apply, broadcast_apply, gate_apply, mm_attn_apply, mm_q_apply, broadcastTo_1b_ab_apply]
  have one : FloatOps.ofBits (F := Ideal) .f32 0x3F800000#32 = 1 := Cert.GatedSpec.ofBits_one
  rw [one]
  simp only [truncf_apply, mm_p_apply]
  rfl

end Cert.KernelIdeal.Hand

end
-- ==== Proof.KernelIdeal.Region1Value.lean ====
/-
  What the second region leaves in its output array, at the ideal instance: at row r, feature o the
  specification's row function of row r of the input.

  The 64 grid points walk the 16384 rows in blocks of 256: point t sees rows 256·t … 256·t + 255 of the input, the six
  other arrays whole, and writes back rows 256·t … 256·t + 255 of the output. The value stored at row p, feature q of a
  block is the row function of the block's row p, so what point t writes back is its block of one function of the
  arrays as the region finds them; the 64 blocks tile the array, so afterwards the array is that function.
-/
import proofs.«129056_j47304769798215_2_alg».proof.Proof.KernelIdeal.Region1Payload
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! ## The closed form -/

/-- What the output array holds after the region, from the arrays as the region finds them: at (r, o) the row
    function of row r of the input, against the masked product, the two factors, the gate row, the gate offset and
    the bias row. -/
def G1 (V : (c : Dev nD) → (b : Ref sig .tc) → Buf (Elt Ideal) ((c : Thread nD τ).loc b)) (c : Dev nD) : S16384x2048.Idx → EReal :=
  fun j => Cert.GatedSpec.rowOut (fun i => (V c main_v7 : S16384x2048.Idx → EReal) (ix2 (j 0) i))
    (fun o i => (V c main_v0 : S2048x2048.Idx → EReal) (ix2 o i))
    (fun r i => (V c main_v2 : S204x2048.Idx → EReal) (ix2 r i))
    (fun o r => (V c main_v4 : S2048x204.Idx → EReal) (ix2 o r))
    (fun i => (V c main_arg3 : S1x2048.Idx → EReal) (ix2 (0 : Fin 1) i))
    ((V c main_v5 : S1x1.Idx → EReal) (ix2 (0 : Fin 1) (0 : Fin 1)))
    (fun o => (V c main_v6 : S1x2048.Idx → EReal) (ix2 (0 : Fin 1) o)) (j 1)

/-! ## The grid: which blocks a point sees -/

theorem hz1 : (![0, 0] : Fin 2 → Nat) = fun _ => 0 := funext fun a => by fin_cases a <;> rfl

/-- Point t sees block t of the input's and of the output's rows; every other window is one block, the whole array. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row p of block t is a row of the array. -/
theorem row_lt (t : Fin cfg1.N) (p : Fin 256) : 256 * t.val + p.val < 16384 := by
  have ht : t.val < 64 := lt_of_lt_of_eq t.isLt (show cfg1.N = 64 from N_1)
  have hp := p.isLt
  omega

variable (V : (c : Dev nD) → (b : Ref sig .tc) → Buf (Elt Ideal) ((c : Thread nD τ).loc b))

/-! ## Each window's block at a point, read at an index -/

/-- The input's block at point t, read at (p, i): row 256·t + p of the input. -/
theorem blk1_0_read (c : Dev nD) (t : Fin cfg1.N) (p : Fin 256) (i : Fin 2048) :
    iblk1 V c 0 t (ix2 p i) = (V c main_v7 : S16384x2048.Idx → EReal) (ix2 (⟨256 * t.val + p.val, row_lt t p⟩ : Fin 16384) i) := by
  obtain ⟨e0, e1, -⟩ := idx_facts1 t
  show V c main_v7 (((cfg1.win 0).blk t).view.emb (ix2 p i)) = V c main_v7 _
  refine congrArg _ (funext fun a => Fin.ext ?_)
  match a with
  | ⟨0, _⟩ => show win1_0.index t (0 : Fin 2) * 256 + 1 * p.val = 256 * t.val + p.val; omega
  | ⟨1, _⟩ => show win1_0.index t (1 : Fin 2) * 2048 + 1 * i.val = i.val; omega

/-- The masked product is brought in whole. -/
theorem blk1_1_read (c : Dev nD) (t : Fin cfg1.N) (o i : Fin 2048) :
    iblk1 V c 1 t (ix2 o i) = (V c main_v0 : S2048x2048.Idx → EReal) (ix2 o i) := by
  obtain ⟨-, -, e0, e1, -⟩ := idx_facts1 t
  show V c main_v0 (((cfg1.win 1).blk t).view.emb (ix2 o i)) = V c main_v0 _
  refine congrArg _ (funext fun a => Fin.ext ?_)
  match a with
  | ⟨0, _⟩ => show win1_1.index t (0 : Fin 2) * 2048 + 1 * o.val = o.val; omega
  | ⟨1, _⟩ => show win1_1.index t (1 : Fin 2) * 2048 + 1 * i.val = i.val; omega

/-- The first factor (204 rows) is brought in whole. -/
theorem blk1_2_read (c : Dev nD) (t : Fin cfg1.N) (r : Fin 204) (i : Fin 2048) :
    iblk1 V c 2 t (ix2 r i) = (V c main_v2 : S204x2048.Idx → EReal) (ix2 r i) := by
  obtain ⟨-, -, -, -, e0, e1, -⟩ := idx_facts1 t
  show V c main_v2 (((cfg1.win 2).blk t).view.emb (ix2 r i)) = V c main_v2 _
  refine congrArg _ (funext fun a => Fin.ext ?_)
  match a with
  | ⟨0, _⟩ => show win1_2.index t (0 : Fin 2) * 204 + 1 * r.val = r.val; omega
  | ⟨1, _⟩ => show win1_2.index t (1 : Fin 2) * 2048 + 1 * i.val = i.val; omega

/-- The second factor (204 columns) is brought in whole. -/
theorem blk1_3_read (c : Dev nD) (t : Fin cfg1.N) (o : Fin 2048) (r : Fin 204) :
    iblk1 V c 3 t (ix2 o r) = (V c main_v4 : S2048x204.Idx → EReal) (ix2 o r) := by
  obtain ⟨-, -, -, -, -, -, e0, e1, -⟩ := idx_facts1 t
  show V c main_v4 (((cfg1.win 3).blk t).view.emb (ix2 o r)) = V c main_v4 _
  refine congrArg _ (funext fun a => Fin.ext ?_)
  match a with
  | ⟨0, _⟩ => show win1_3.index t (0 : Fin 2) * 2048 + 1 * o.val = o.val; omega
  | ⟨1, _⟩ => show win1_3.index t (1 : Fin 2) * 204 + 1 * r.val = r.val; omega

/-- The gate row is brought in whole. -/
theorem blk1_4_read (c : Dev nD) (t : Fin cfg1.N) (u : Fin 1) (i : Fin 2048) :
    iblk1 V c 4 t (ix2 u i) = (V c main_arg3 : S1x2048.Idx → EReal) (ix2 u i) := by
  obtain ⟨-, -, -, -, -, -, -, -, e0, e1, -⟩ := idx_facts1 t
  show V c main_arg3 (((cfg1.win 4).blk t).view.emb (ix2 u i)) = V c main_arg3 _
  refine congrArg _ (funext fun a => Fin.ext ?_)
  match a with
  | ⟨0, _⟩ => show win1_4.index t (0 : Fin 2) * 1 + 1 * u.val = u.val; omega
  | ⟨1, _⟩ => show win1_4.index t (1 : Fin 2) * 2048 + 1 * i.val = i.val; omega

/-- The gate offset is brought in whole. -/
theorem blk1_5_read (c : Dev nD) (t : Fin cfg1.N) (u v : Fin 1) :
    iblk1 V c 5 t (ix2 u v) = (V c main_v5 : S1x1.Idx → EReal) (ix2 u v) := by
  obtain ⟨-, -, -, -, -, -, -, -, -, -, e0, e1, -⟩ := idx_facts1 t
  show V c main_v5 (((cfg1.win 5).blk t).view.emb (ix2 u v)) = V c main_v5 _
  refine congrArg _ (funext fun a => Fin.ext ?_)
  match a with
  | ⟨0, _⟩ => show win1_5.index t (0 : Fin 2) * 1 + 1 * u.val = u.val; omega
  | ⟨1, _⟩ => show win1_5.index t (1 : Fin 2) * 1 + 1 * v.val = v.val; omega

/-- The bias row is brought in whole. -/
theorem blk1_6_read (c : Dev nD) (t : Fin cfg1.N) (u : Fin 1) (o : Fin 2048) :
    iblk1 V c 6 t (ix2 u o) = (V c main_v6 : S1x2048.Idx → EReal) (ix2 u o) := by
  obtain ⟨-, -, -, -, -, -, -, -, -, -, -, -, e0, e1, -⟩ := idx_facts1 t
  show V c main_v6 (((cfg1.win 6).blk t).view.emb (ix2 u o)) = V c main_v6 _
  refine congrArg _ (funext fun a => Fin.ext ?_)
  match a with
  | ⟨0, _⟩ => show win1_6.index t (0 : Fin 2) * 1 + 1 * u.val = u.val; omega
  | ⟨1, _⟩ => show win1_6.index t (1 : Fin 2) * 2048 + 1 * o.val = o.val; omega

/-! ## What a point writes back, and the final array -/

/-- WHAT POINT t WRITES BACK is its block of the closed form. -/
theorem flushed7_eq (c : Dev nD) (t : Fin cfg1.N) :
    (dat1 V c).flushed 7 t = ((cfg1.win 7).blk t).view.read (Elt Ideal) (G1 V c) := by
  obtain ⟨-, -, -, -, -, -, -, -, -, -, -, -, -, -, e0, e1⟩ := idx_facts1 t
  show (cfg1.win 7).cut (grid1.coords t) ((dat1 V c).after 7 t) = _
  rw [after1_7]
  unfold out1_7
  rw [View.canon_unit_zero hz1]
  simp only [View.ld_unit_zero (S := S256x2048) hz1, View.ld_unit_zero (S := S2048x2048) hz1, View.ld_unit_zero (S := S204x2048) hz1,
    View.ld_unit_zero (S := S2048x204) hz1, View.ld_unit_zero (S := S1x2048) hz1, View.ld_unit_zero (S := S1x1) hz1]
  funext y
  obtain ⟨p, q, rfl⟩ : ∃ (p : Fin 256) (q : Fin 2048), y = ix2 p q := ⟨y 0, y 1, eq_ix2 y⟩
  show k1_pay1 (F := Ideal) (iblk1 V c 0 t) (iblk1 V c 4 t) (iblk1 V c 5 t) (iblk1 V c 1 t) (iblk1 V c 2 t) (iblk1 V c 3 t) (iblk1 V c 6 t) (ix2 p q)
    = G1 V c (((cfg1.win 7).blk t).view.emb (ix2 p q))
  have hemb : ((cfg1.win 7).blk t).view.emb (ix2 p q) = ix2 (⟨256 * t.val + p.val, row_lt t p⟩ : Fin 16384) q := by
    refine funext fun a => Fin.ext ?_
    match a with
    | ⟨0, _⟩ => show win1_7.index t (0 : Fin 2) * 256 + 1 * p.val = 256 * t.val + p.val; omega
    | ⟨1, _⟩ => show win1_7.index t (1 : Fin 2) * 2048 + 1 * q.val = q.val; omega
  rw [hemb]
  refine (pay1_apply (iblk1 V c 0 t) (iblk1 V c 4 t) (iblk1 V c 5 t) (iblk1 V c 1 t) (iblk1 V c 2 t) (iblk1 V c 3 t) (iblk1 V c 6 t) p q).trans ?_
  simp only [blk1_0_read V c t, blk1_1_read V c t, blk1_2_read V c t, blk1_3_read V c t, blk1_4_read V c t, blk1_5_read V c t,
    blk1_6_read V c t]
  rfl

/-- An index of the array is in point t's block iff each coordinate is in the block's range on its axis. -/
theorem mem_blk7 (t : Fin cfg1.N) (i : S16384x2048.Idx) :
    i ∈ ((cfg1.win 7).blk t).view.set ↔ ∀ a : Fin 2, win1_7.index t a * S256x2048.size a ≤ (i a).val ∧ (i a).val < win1_7.index t a * S256x2048.size a + S256x2048.size a := by
  show i ∈ ((View.whole main_v8).slice (win1_7.rect t)).set ↔ _
  rw [View.set_slice_whole, Rect.mem_set_unit]
  exact Iff.rfl

/-- Every index of the array lies in some point's block: row r in the block of point r / 256. -/
theorem cover7 (i : S16384x2048.Idx) : ∃ t : Fin cfg1.N, (cfg1.win 7).flush t = true ∧ i ∈ ((cfg1.win 7).blk t).view.set := by
  have hi0 : (i 0).val < 16384 := (i 0).isLt
  have hi1 : (i 1).val < 2048 := (i 1).isLt
  have hN : cfg1.N = 64 := N_1
  let t : Fin cfg1.N := ⟨(i 0).val / 256, by rw [hN]; omega⟩
  have htv : t.val = (i 0).val / 256 := rfl
  obtain ⟨-, -, -, -, -, -, -, -, -, -, -, -, -, -, e0, e1⟩ := idx_facts1 t
  refine ⟨t, flush1_7 t, ?_⟩
  rw [mem_blk7]
  intro a
  match a with
  | ⟨0, _⟩ => show win1_7.index t (0 : Fin 2) * 256 ≤ (i 0).val ∧ (i 0).val < win1_7.index t (0 : Fin 2) * 256 + 256; rw [e0, htv]; omega
  | ⟨1, _⟩ => show win1_7.index t (1 : Fin 2) * 2048 ≤ (i 1).val ∧ (i 1).val < win1_7.index t (1 : Fin 2) * 2048 + 2048; rw [e1]; omega

/-- THE OUTPUT ARRAY after the region. -/
theorem final1 (c : Dev nD) : (dat1 V c).arrAt 7 cfg1.N = G1 V c :=
  (dat1 V c).arrAt_eq_of_cover 7 (G1 V c) (fun t _ => flushed7_eq V c t) (cover7)

end Cert.KernelIdeal.Hand

end
-- ==== Proof.KernelIdeal.HostValues.lean ====
/-
  The host operations around the kernel's two regions, read at an index.

  Before the second region the program cuts the first 204 rows of W2 and the first 204 columns of W1 (and changes
  their format, which over the extended reals changes nothing), views the gate bias [1] as [1, 1], the bias [2048] as
  [1, 2048] and the input [4, 4096, 2048] as [16384, 2048] (row 4096·b + s is row (b, s)); after it, the result
  [16384, 2048] is viewed as [4, 4096, 2048] again. Each of these is a change of layout: at an index the result is
  the operand at one index. The buffers the operations do not write keep their contents.
-/
import proofs.«129056_j47304769798215_2_alg».proof.Proof.Gen.KernelIdeal.Regions
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.HostVal

open Cert.KernelIdeal Cert.KernelIdeal.Gen Idealize.ShloMosaic Idealize.ShloMosaic.TcCoe Idealize.ShloMosaic.ValueIdx

/-! ## The four layout changes at an index -/

section Layout
variable {α : Type}

/-- The first 204 rows of a 2048 × 2048 matrix: entry (r, i) of the cut is entry (r, i) of the matrix. -/
theorem slice_rows_apply (x : S2048x2048.Idx → α) (h : S2048x2048.Slices ![0, 0] S204x2048) (r : Fin 204) (i : Fin 2048)
    (hr : 204 ≤ 2048) :
    extractStridedSlice S204x2048 ![0, 0] x h (ix2 r i) = x (ix2 (Fin.castLE hr r) i) :=
  extractStridedSlice_apply _ x h _ _ (fun a => match a with
    | ⟨0, _⟩ => by show r.val = 0 + r.val; omega
    | ⟨1, _⟩ => by show i.val = 0 + i.val; omega)

/-- The first 204 columns of a 2048 × 2048 matrix: entry (o, r) of the cut is entry (o, r) of the matrix. -/
theorem slice_cols_apply (x : S2048x2048.Idx → α) (h : S2048x2048.Slices ![0, 0] S2048x204) (o : Fin 2048) (r : Fin 204)
    (hr : 204 ≤ 2048) :
    extractStridedSlice S2048x204 ![0, 0] x h (ix2 o r) = x (ix2 o (Fin.castLE hr r)) :=
  extractStridedSlice_apply _ x h _ _ (fun a => match a with
    | ⟨0, _⟩ => by show o.val = 0 + o.val; omega
    | ⟨1, _⟩ => by show r.val = 0 + r.val; omega)

/-- A [4, 4096, 2048] array viewed as 16384 rows: row 4096·b + s is row (b, s). -/
theorem rows_of_batch_apply (x : S4x4096x2048.Idx → α) (h : S4x4096x2048.ShapeCasts S16384x2048) (b : Fin 4) (s : Fin 4096)
    (i : Fin 2048) (hbs : 4096 * b.val + s.val < 16384) :
    shapeCast S16384x2048 x h (ix2 (⟨4096 * b.val + s.val, hbs⟩ : Fin 16384) i) = x (ix3 b s i) :=
  shapeCast_apply x h _ _ (by
    rw [Shape.rowMajor_val_three, Shape.rowMajor_val_two]
    show (b.val * 4096 + s.val) * 2048 + i.val = (4096 * b.val + s.val) * 2048 + i.val
    omega)

/-- 16384 rows viewed as a [4, 4096, 2048] array: row (b, s) is row 4096·b + s. -/
theorem batch_of_rows_apply (x : S16384x2048.Idx → α) (h : S16384x2048.ShapeCasts S4x4096x2048) (b : Fin 4) (s : Fin 4096)
    (o : Fin 2048) (hbs : 4096 * b.val + s.val < 16384) :
    shapeCast S4x4096x2048 x h (ix3 b s o) = x (ix2 (⟨4096 * b.val + s.val, hbs⟩ : Fin 16384) o) :=
  shapeCast_apply x h _ _ (by
    rw [Shape.rowMajor_val_three, Shape.rowMajor_val_two]
    show (4096 * b.val + s.val) * 2048 + o.val = (b.val * 4096 + s.val) * 2048 + o.val
    omega)

end Layout

/-! ## Before the second region -/

/-- The first 204 rows of W2, in the narrower format: entry (r, i) is W2's entry (r, i). -/
theorem host1_v2 (W : Valuation τ sig (Elt Ideal)) (r : Fin 204) (i : Fin 2048) :
    (StableHlo.after (hostOps1 (F := Ideal)) W (Proc.devRef .tc main_v2) : S204x2048.Idx → EReal) (ix2 r i)
      = (W (Proc.devRef .tc main_arg2) : S2048x2048.Idx → EReal) (ix2 (Fin.castLE (by decide) r) i) := by
  after_results
  exact slice_rows_apply (α := EReal) (W (Proc.devRef .tc main_arg2)) Facts₀.slices_S2048x2048_S204x2048_0_0 r i _

/-- The first 204 columns of W1, in the narrower format: entry (o, r) is W1's entry (o, r). -/
theorem host1_v4 (W : Valuation τ sig (Elt Ideal)) (o : Fin 2048) (r : Fin 204) :
    (StableHlo.after (hostOps1 (F := Ideal)) W (Proc.devRef .tc main_v4) : S2048x204.Idx → EReal) (ix2 o r)
      = (W (Proc.devRef .tc main_arg1) : S2048x2048.Idx → EReal) (ix2 o (Fin.castLE (by decide) r)) := by
  after_results
  exact slice_cols_apply (α := EReal) (W (Proc.devRef .tc main_arg1)) Facts₀.slices_S2048x2048_S2048x204_0_0 o r _

/-- The gate bias viewed as a 1 × 1 matrix: its one entry. -/
theorem host1_v5 (W : Valuation τ sig (Elt Ideal)) :
    (StableHlo.after (hostOps1 (F := Ideal)) W (Proc.devRef .tc main_v5) : S1x1.Idx → EReal) (ix2 (0 : Fin 1) (0 : Fin 1))
      = (W (Proc.devRef .tc main_arg4) : S1.Idx → EReal) (ix1 (0 : Fin 1)) := by
  after_results
  show shapeCast S1x1 (W (Proc.devRef .tc main_arg4)) _ (ix2 (0 : Fin 1) (0 : Fin 1)) = _
  exact shapeCast_a_1a_apply _ _ _ _

/-- The bias viewed as a one-row matrix: entry (0, o) is the bias of feature o. -/
theorem host1_v6 (W : Valuation τ sig (Elt Ideal)) (o : Fin 2048) :
    (StableHlo.after (hostOps1 (F := Ideal)) W (Proc.devRef .tc main_v6) : S1x2048.Idx → EReal) (ix2 (0 : Fin 1) o)
      = (W (Proc.devRef .tc main_arg5) : S2048.Idx → EReal) (ix1 o) := by
  after_results
  show shapeCast S1x2048 (W (Proc.devRef .tc main_arg5)) _ (ix2 (0 : Fin 1) o) = _
  exact shapeCast_a_1a_apply _ _ _ _

/-- The input viewed as 16384 rows: row 4096·b + s is row (b, s). -/
theorem host1_v7 (W : Valuation τ sig (Elt Ideal)) (b : Fin 4) (s : Fin 4096) (i : Fin 2048) :
    (StableHlo.after (hostOps1 (F := Ideal)) W (Proc.devRef .tc main_v7) : S16384x2048.Idx → EReal)
        (ix2 (⟨4096 * b.val + s.val, by have := b.isLt; have := s.isLt; omega⟩ : Fin 16384) i)
      = (W (Proc.devRef .tc main_arg0) : S4x4096x2048.Idx → EReal) (ix3 b s i) := by
  after_results
  exact rows_of_batch_apply (α := EReal) _ _ b s i _

/-- A buffer none of the seven operations writes keeps its contents. -/
theorem host1_keep (W : Valuation τ sig (Elt Ideal)) (r : Ref sig .tc) (h : r ∉ hostOps1_W) :
    StableHlo.after (hostOps1 (F := Ideal)) W (Proc.devRef .tc r) = W (Proc.devRef .tc r) :=
  StableHlo.after_of_writes_sub hostOps1 W hostOps1_writes h

/-! ## After the second region -/

/-- The result viewed as [4, 4096, 2048] again: entry (b, s, o) is row 4096·b + s, column o. -/
theorem host2_v9 (W : Valuation τ sig (Elt Ideal)) (b : Fin 4) (s : Fin 4096) (o : Fin 2048) :
    (StableHlo.after (hostOps2 (F := Ideal)) W (Proc.devRef .tc main_v9) : S4x4096x2048.Idx → EReal) (ix3 b s o)
      = (W (Proc.devRef .tc main_v8) : S16384x2048.Idx → EReal)
          (ix2 (⟨4096 * b.val + s.val, by have := b.isLt; have := s.isLt; omega⟩ : Fin 16384) o) := by
  after_results
  exact batch_of_rows_apply (α := EReal) _ _ b s o _

/-- A buffer the one operation does not write keeps its contents. -/
theorem host2_keep (W : Valuation τ sig (Elt Ideal)) (r : Ref sig .tc) (h : r ∉ hostOps2_W) :
    StableHlo.after (hostOps2 (F := Ideal)) W (Proc.devRef .tc r) = W (Proc.devRef .tc r) :=
  StableHlo.after_of_writes_sub hostOps2 W hostOps2_writes h

end Cert.KernelIdeal.HostVal

end
-- ==== Proof.KernelIdeal.Final.lean ====
/-
  The idealized kernel program's result as the shared specification of its arguments. The result is a reshape of
  the second region's output; that region computes, row by row, the gated sum of its operands; its operands are the
  first region's masked product, slices and reshapes of the arguments; and the first region's masked product is the
  specification's. Reading the chain back through the five boundaries gives the result at (b, s, o) as the row
  function of row (b, s) of the input.
-/
import proofs.«129056_j47304769798215_2_alg».proof.Proof.KernelIdeal.Kept
import proofs.«129056_j47304769798215_2_alg».proof.Proof.KernelIdeal.Region0Value
import proofs.«129056_j47304769798215_2_alg».proof.Proof.KernelIdeal.Region1Value
import proofs.«129056_j47304769798215_2_alg».proof.Proof.KernelIdeal.HostValues

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx
open scoped BigOperators
open Cert.KernelIdeal.HostVal

/-- The row function applied to equal arguments. -/
theorem rowOut_congr {xr xr' : Fin 2048 → EReal} {A A' : Fin 2048 → Fin 2048 → EReal} {P P' : Fin 204 → Fin 2048 → EReal}
    {Q Q' : Fin 2048 → Fin 204 → EReal} {gw gw' : Fin 2048 → EReal} {gb gb' : EReal} {bias bias' : Fin 2048 → EReal}
    (h1 : xr = xr') (h2 : A = A') (h3 : P = P') (h4 : Q = Q') (h5 : gw = gw') (h6 : gb = gb') (h7 : bias = bias') (o : Fin 2048) :
    Cert.GatedSpec.rowOut xr A P Q gw gb bias o = Cert.GatedSpec.rowOut xr' A' P' Q' gw' gb' bias' o := by
  subst h1 h2 h3 h4 h5 h6 h7; rfl

variable (m : (ℓ : Loc nD τ sig) → Buf (Elt Ideal) ℓ) (ρ : Dev nD → PrngReg)

/-! ## What the second region is entered with -/

/-- The first two weight matrices and the mask pass the first region unchanged (it only reads them). -/
theorem W1_arg1 (c : Dev nD) : W1 m ρ c (Proc.devRef .tc main_arg1) = (m ((c : Thread nD τ).loc main_arg1)) :=
  (W1_arr m ρ c 0).trans (((dat0 (W0r m ρ) c).arrAt_in 0 rfl _).trans (A_eq0 (W0r m ρ) c 0))
theorem W1_arg2 (c : Dev nD) : W1 m ρ c (Proc.devRef .tc main_arg2) = (m ((c : Thread nD τ).loc main_arg2)) :=
  (W1_arr m ρ c 1).trans (((dat0 (W0r m ρ) c).arrAt_in 1 rfl _).trans (A_eq0 (W0r m ρ) c 1))

/-- The rows of the reshaped input are the rows (b, s) of the input. -/
theorem in_v7 (c : Dev nD) (b : Fin 4) (s : Fin 4096) (i : Fin 2048) :
    (W2r m ρ c main_v7 : S16384x2048.Idx → EReal) (ix2 (⟨4096 * b.val + s.val, by have := b.isLt; have := s.isLt; omega⟩ : Fin 16384) i)
      = ((m ((c : Thread nD τ).loc main_arg0)) : S4x4096x2048.Idx → EReal) (ix3 b s i) :=
  (host1_v7 (W1 m ρ c) b s i).trans (congrFun (W1_of_ne m ρ c main_arg0 (by decide)) _)
/-- The first region's output reaches the second region untouched: the masked product. -/
theorem in_v0 (c : Dev nD) : (W2r m ρ c main_v0 : S2048x2048.Idx → EReal) = G0 (W0r m ρ) c :=
  (host1_keep (W1 m ρ c) main_v0 (by decide)).trans ((W1_arr m ρ c 3).trans (final0 (W0r m ρ) c))
theorem in_v2 (c : Dev nD) (r : Fin 204) (i : Fin 2048) :
    (W2r m ρ c main_v2 : S204x2048.Idx → EReal) (ix2 r i) = ((m ((c : Thread nD τ).loc main_arg2)) : S2048x2048.Idx → EReal) (ix2 (Fin.castLE (by decide) r) i) :=
  (host1_v2 (W1 m ρ c) r i).trans (congrFun (W1_arg2 m ρ c) _)
theorem in_v4 (c : Dev nD) (o : Fin 2048) (r : Fin 204) :
    (W2r m ρ c main_v4 : S2048x204.Idx → EReal) (ix2 o r) = ((m ((c : Thread nD τ).loc main_arg1)) : S2048x2048.Idx → EReal) (ix2 o (Fin.castLE (by decide) r)) :=
  (host1_v4 (W1 m ρ c) o r).trans (congrFun (W1_arg1 m ρ c) _)
theorem in_arg3 (c : Dev nD) : W2r m ρ c main_arg3 = (m ((c : Thread nD τ).loc main_arg3)) :=
  (host1_keep (W1 m ρ c) main_arg3 (by decide)).trans (W1_of_ne m ρ c main_arg3 (by decide))
theorem in_v5 (c : Dev nD) :
    (W2r m ρ c main_v5 : S1x1.Idx → EReal) (ix2 (0 : Fin 1) (0 : Fin 1)) = ((m ((c : Thread nD τ).loc main_arg4)) : S1.Idx → EReal) (ix1 (0 : Fin 1)) :=
  (host1_v5 (W1 m ρ c)).trans (congrFun (W1_of_ne m ρ c main_arg4 (by decide)) _)
theorem in_v6 (c : Dev nD) (o : Fin 2048) :
    (W2r m ρ c main_v6 : S1x2048.Idx → EReal) (ix2 (0 : Fin 1) o) = ((m ((c : Thread nD τ).loc main_arg5)) : S2048.Idx → EReal) (ix1 o) :=
  (host1_v6 (W1 m ρ c) o).trans (congrFun (W1_of_ne m ρ c main_arg5 (by decide)) _)

/-! ## The result -/

/-- THE KERNEL PROGRAM'S RESULT at (b, s, o): the row function of row (b, s) of the input, the masked product of the
    weight matrices, the first 204 rows of the second and columns of the first, the gate weights and bias, and the bias. -/
theorem kernel_value (c : Dev nD) (b : Fin 4) (s : Fin 4096) (o : Fin 2048) :
    (W4 m ρ c (Proc.devRef .tc main_v9) : S4x4096x2048.Idx → EReal) (ix3 b s o)
      = Cert.GatedSpec.rowOut (fun i => ((m ((c : Thread nD τ).loc main_arg0)) : S4x4096x2048.Idx → EReal) (ix3 b s i))
          (Cert.GatedSpec.attn (fun o k => ((m ((c : Thread nD τ).loc main_arg1)) : S2048x2048.Idx → EReal) (ix2 o k)) (fun k i => ((m ((c : Thread nD τ).loc main_arg2)) : S2048x2048.Idx → EReal) (ix2 k i)) (fun o i => ((m ((c : Thread nD τ).loc main_arg6)) : S2048x2048.Idx → EReal) (ix2 o i)))
          (fun r i => ((m ((c : Thread nD τ).loc main_arg2)) : S2048x2048.Idx → EReal) (ix2 (Fin.castLE (by decide) r) i))
          (fun o r => ((m ((c : Thread nD τ).loc main_arg1)) : S2048x2048.Idx → EReal) (ix2 o (Fin.castLE (by decide) r)))
          (fun i => ((m ((c : Thread nD τ).loc main_arg3)) : S1x2048.Idx → EReal) (ix2 (0 : Fin 1) i))
          (((m ((c : Thread nD τ).loc main_arg4)) : S1.Idx → EReal) (ix1 (0 : Fin 1)))
          (fun o => ((m ((c : Thread nD τ).loc main_arg5)) : S2048.Idx → EReal) (ix1 o)) o := by
  refine (host2_v9 (W3 m ρ c) b s o).trans ?_
  refine (congrFun ((W3_arr m ρ c 7).trans (final1 (W2r m ρ) c)) _).trans ?_
  unfold G1
  exact rowOut_congr (funext fun i => in_v7 m ρ c b s i)
    (funext fun o => funext fun i => (congrFun (in_v0 m ρ c) (ix2 o i)).trans rfl)
    (funext fun r => funext fun i => in_v2 m ρ c r i)
    (funext fun o => funext fun r => in_v4 m ρ c o r)
    (funext fun i => congrFun (in_arg3 m ρ c) _)
    (in_v5 m ρ c)
    (funext fun o => in_v6 m ρ c o) o

end Cert.KernelIdeal.Hand

end
-- ==== Proof.RefIsSpec.lean ====
/-
  The reference program's result, read at one index, is the shared specification.

  At an index (b, s, o) of the [4, 4096, 2048] result the reference computes

      g · (∑ᵢ x[b,s,i] · A[o,i]) + (1 − g) · (∑ᵣ (∑ᵢ x[b,s,i] · W2[r,i]) · W1[o,r]) + bias[o],
      g = 1 / (1 + exp (−((∑ᵢ x[b,s,i] · gw[0,i]) + gb[0]))),   A[o,i] = (∑ₖ W1[o,k] · W2[k,i]) · mask[o,i],

  with r ranging over the first 204 rows of W2 and the first 204 columns of W1. Each stage of the reference is read
  at its index by the generated read lemmas; what is written here is the identification of the composed index
  functions with plain coordinates, one small lemma per path (the gate, the masked product, the two matrix paths,
  the bias), and their assembly.
-/
import proofs.«129056_j47304769798215_2_alg».proof.Proof.Gen.ReferenceIdeal.Read
import proofs.«129056_j47304769798215_2_alg».proof.Proof.Spec

noncomputable section

open scoped BigOperators

namespace Cert.ReferenceIdeal.RefValue

open Cert.ReferenceIdeal Cert.ReferenceIdeal.Read Idealize.ShloMosaic Idealize.ShloMosaic.ValueIdx

/-! ## The gate

The gate column has one entry per row (b, s): its third coordinate ranges over a single value. -/

/-- The row (b, s) of the input, read along the contracted axis of the gate's inner product. -/
theorem lidx_v0 (b : Fin 4) (s : Fin 4096) (k : Fin 2048) :
    lidx_main_v0 (ix3 b s (0 : Fin 1)) k = ix3 b s k :=
  funext fun a => Fin.ext (by match a with | ⟨0, _⟩ => rfl | ⟨1, _⟩ => rfl | ⟨2, _⟩ => rfl)

/-- The single row of the gate weights, read along the contracted axis. -/
theorem ridx_v0 (b : Fin 4) (s : Fin 4096) (k : Fin 2048) :
    ridx_main_v0 (ix3 b s (0 : Fin 1)) k = ix2 (0 : Fin 1) k :=
  funext fun a => Fin.ext (by match a with | ⟨0, _⟩ => rfl | ⟨1, _⟩ => rfl)

/-- The gate bias has one entry, whatever the row. -/
theorem idx_v1_v2 (j : S4x4096x1.Idx) : idx_main_v1 (idx_main_v2 j) = ix1 (0 : Fin 1) :=
  funext fun a => Fin.ext (by match a with | ⟨0, _⟩ => rfl)

/-- The gate of row (b, s): one over one plus the exponential of minus the row's inner product with the gate
    weights plus the gate bias — the logistic function of that number. -/
theorem gate_eq (x0 : (⟨S4x4096x2048, .f32⟩ : BufTy).Contents (Elt Ideal)) (x3 : (⟨S1x2048, .f32⟩ : BufTy).Contents (Elt Ideal))
    (x4 : (⟨S1, .f32⟩ : BufTy).Contents (Elt Ideal)) (b : Fin 4) (s : Fin 4096) :
    val_main_v9 x0 x3 x4 (ix3 b s (0 : Fin 1))
      = Cert.GatedSpec.gate (fun i => x0 (ix3 b s i)) (fun i => x3 (ix2 (0 : Fin 1) i)) (x4 (ix1 (0 : Fin 1))) := by
  rw [val_main_v9_apply, val_main_v8_apply, val_main_cst_0_apply, val_main_v7_apply, val_main_v6_apply, val_main_cst_apply,
    val_main_v5_apply, val_main_v4_apply, val_main_v3_apply, val_main_v0_apply, val_main_v2_apply, val_main_v1_apply,
    idx_v1_v2]
  simp only [lidx_v0, ridx_v0, Ideal.hostDivf_def, Ideal.addf_def, Ideal.hostUnary_exp_def, Ideal.hostNegf_def, Ideal.negf_def,
    Ideal.ofBits_def, Cert.GatedSpec.ofBits_one]
  rfl

/-! ## The masked product of the weight matrices -/

theorem lidx_v10 (o i k : Fin 2048) : lidx_main_v10 (ix2 o i) k = ix2 o k :=
  funext fun a => Fin.ext (by match a with | ⟨0, _⟩ => rfl | ⟨1, _⟩ => rfl)

theorem ridx_v10 (o i k : Fin 2048) : ridx_main_v10 (ix2 o i) k = ix2 k i :=
  funext fun a => Fin.ext (by match a with | ⟨0, _⟩ => rfl | ⟨1, _⟩ => rfl)

/-- The masked product at row o, column i: the product of the two weight matrices there, times the mask there. -/
theorem attn_eq (x1 x2 x6 : (⟨S2048x2048, .f32⟩ : BufTy).Contents (Elt Ideal)) (o i : Fin 2048) :
    val_main_v11 x1 x2 x6 (ix2 o i)
      = Cert.GatedSpec.attn (fun o k => x1 (ix2 o k)) (fun k i => x2 (ix2 k i)) (fun o i => x6 (ix2 o i)) o i := by
  rw [val_main_v11_apply, val_main_v10_apply]
  simp only [lidx_v10, ridx_v10, Ideal.mulf_def]
  rfl

/-! ## The masked path: the row times the transposed masked product -/

theorem lidx_v12 (b : Fin 4) (s : Fin 4096) (o k : Fin 2048) : lidx_main_v12 (ix3 b s o) k = ix3 b s k :=
  funext fun a => Fin.ext (by match a with | ⟨0, _⟩ => rfl | ⟨1, _⟩ => rfl | ⟨2, _⟩ => rfl)

theorem ridx_v12 (b : Fin 4) (s : Fin 4096) (o k : Fin 2048) : ridx_main_v12 (ix3 b s o) k = ix2 o k :=
  funext fun a => Fin.ext (by match a with | ⟨0, _⟩ => rfl | ⟨1, _⟩ => rfl)

theorem sparse_eq (x0 : (⟨S4x4096x2048, .f32⟩ : BufTy).Contents (Elt Ideal)) (x1 x2 x6 : (⟨S2048x2048, .f32⟩ : BufTy).Contents (Elt Ideal))
    (b : Fin 4) (s : Fin 4096) (o : Fin 2048) :
    val_main_v12 x0 x1 x2 x6 (ix3 b s o)
      = ∑ i : Fin 2048, x0 (ix3 b s i)
          * Cert.GatedSpec.attn (fun o k => x1 (ix2 o k)) (fun k i => x2 (ix2 k i)) (fun o i => x6 (ix2 o i)) o i := by
  rw [val_main_v12_apply]
  simp only [lidx_v12, ridx_v12, attn_eq]

/-! ## The rank-204 path: the row times the first 204 rows of W2, then times the first 204 columns of W1 -/

theorem lidx_v16 (b : Fin 4) (s : Fin 4096) (o : Fin 2048) (r : Fin 204) : lidx_main_v16 (ix3 b s o) r = ix3 b s r :=
  funext fun a => Fin.ext (by match a with | ⟨0, _⟩ => rfl | ⟨1, _⟩ => rfl | ⟨2, _⟩ => rfl)

theorem ridx_v16 (b : Fin 4) (s : Fin 4096) (o : Fin 2048) (r : Fin 204) : ridx_main_v16 (ix3 b s o) r = ix2 o r :=
  funext fun a => Fin.ext (by match a with | ⟨0, _⟩ => rfl | ⟨1, _⟩ => rfl)

theorem lidx_v14 (b : Fin 4) (s : Fin 4096) (r : Fin 204) (k : Fin 2048) : lidx_main_v14 (ix3 b s r) k = ix3 b s k :=
  funext fun a => Fin.ext (by match a with | ⟨0, _⟩ => rfl | ⟨1, _⟩ => rfl | ⟨2, _⟩ => rfl)

theorem ridx_v14 (b : Fin 4) (s : Fin 4096) (r : Fin 204) (k : Fin 2048) : ridx_main_v14 (ix3 b s r) k = ix2 r k :=
  funext fun a => Fin.ext (by match a with | ⟨0, _⟩ => rfl | ⟨1, _⟩ => rfl)

/-- Row r of the slice is row r of W2. -/
theorem idx_v13 (r : Fin 204) (k : Fin 2048) (h : 204 ≤ 2048) : idx_main_v13 (ix2 r k) = ix2 (Fin.castLE h r) k :=
  funext fun a => Fin.ext (by match a with | ⟨0, _⟩ => rfl | ⟨1, _⟩ => rfl)

/-- Column r of the slice is column r of W1. -/
theorem idx_v15 (o : Fin 2048) (r : Fin 204) (h : 204 ≤ 2048) : idx_main_v15 (ix2 o r) = ix2 o (Fin.castLE h r) :=
  funext fun a => Fin.ext (by match a with | ⟨0, _⟩ => rfl | ⟨1, _⟩ => rfl)

theorem lowrank_eq (x0 : (⟨S4x4096x2048, .f32⟩ : BufTy).Contents (Elt Ideal)) (x1 x2 : (⟨S2048x2048, .f32⟩ : BufTy).Contents (Elt Ideal))
    (b : Fin 4) (s : Fin 4096) (o : Fin 2048) (h : 204 ≤ 2048) :
    val_main_v16 x0 x1 x2 (ix3 b s o)
      = ∑ r : Fin 204, (∑ i : Fin 2048, x0 (ix3 b s i) * x2 (ix2 (Fin.castLE h r) i)) * x1 (ix2 o (Fin.castLE h r)) := by
  rw [val_main_v16_apply]
  simp only [lidx_v16, ridx_v16, val_main_v14_apply, val_main_v13_apply, val_main_v15_apply, lidx_v14, ridx_v14,
    idx_v13 _ _ h, idx_v15 _ _ h]

/-! ## The broadcasts -/

/-- The gate column broadcast along the features: entry (b, s, o) reads the gate of row (b, s). -/
theorem idx_v17 (b : Fin 4) (s : Fin 4096) (o : Fin 2048) : idx_main_v17 (ix3 b s o) = ix3 b s (0 : Fin 1) :=
  funext fun a => Fin.ext (by match a with | ⟨0, _⟩ => rfl | ⟨1, _⟩ => rfl | ⟨2, _⟩ => rfl)

theorem idx_v21 (b : Fin 4) (s : Fin 4096) (o : Fin 2048) : idx_main_v21 (ix3 b s o) = ix3 b s (0 : Fin 1) :=
  funext fun a => Fin.ext (by match a with | ⟨0, _⟩ => rfl | ⟨1, _⟩ => rfl | ⟨2, _⟩ => rfl)

/-- The bias broadcast along the rows: entry (b, s, o) reads the bias of feature o. -/
theorem idx_v24_v25 (b : Fin 4) (s : Fin 4096) (o : Fin 2048) : idx_main_v24 (idx_main_v25 (ix3 b s o)) = ix1 o :=
  funext fun a => Fin.ext (by match a with | ⟨0, _⟩ => rfl)

/-! ## Assembly -/

/-- The reference's result at (b, s, o) is the specification's row result: the gate of row (b, s) times the masked
    path, plus one minus the gate times the rank-204 path, plus the bias of feature o. -/
theorem ref_eq (x0 : (⟨S4x4096x2048, .f32⟩ : BufTy).Contents (Elt Ideal)) (x1 x2 : (⟨S2048x2048, .f32⟩ : BufTy).Contents (Elt Ideal))
    (x3 : (⟨S1x2048, .f32⟩ : BufTy).Contents (Elt Ideal)) (x4 : (⟨S1, .f32⟩ : BufTy).Contents (Elt Ideal))
    (x5 : (⟨S2048, .f32⟩ : BufTy).Contents (Elt Ideal)) (x6 : (⟨S2048x2048, .f32⟩ : BufTy).Contents (Elt Ideal))
    (b : Fin 4) (s : Fin 4096) (o : Fin 2048) :
    val_main_v26 x0 x1 x2 x3 x4 x5 x6 (ix3 b s o)
      = Cert.GatedSpec.rowOut (fun i => x0 (ix3 b s i))
          (Cert.GatedSpec.attn (fun o k => x1 (ix2 o k)) (fun k i => x2 (ix2 k i)) (fun o i => x6 (ix2 o i)))
          (fun r i => x2 (ix2 (Fin.castLE (by decide) r) i))
          (fun o r => x1 (ix2 o (Fin.castLE (by decide) r)))
          (fun i => x3 (ix2 (0 : Fin 1) i)) (x4 (ix1 (0 : Fin 1))) (fun o => x5 (ix1 o)) o := by
  rw [val_main_v26_apply, val_main_v23_apply, val_main_v18_apply, val_main_v17_apply, val_main_v22_apply, val_main_v21_apply,
    val_main_v20_apply, val_main_v19_apply, val_main_cst_1_apply, val_main_v25_apply, val_main_v24_apply,
    idx_v17, idx_v21, idx_v24_v25, gate_eq, sparse_eq, lowrank_eq x0 x1 x2 b s o (by decide)]
  simp only [Ideal.addf_def, Ideal.subf_def, Ideal.mulf_def, Ideal.ofBits_def, Cert.GatedSpec.ofBits_one]
  rfl

end Cert.ReferenceIdeal.RefValue

end
-- ==== Proof.lean ====
/-
  A gated sum of a masked dense path and a rank-204 path, against its reference, over the extended reals.

  For every row x of the input (a [4, 4096, 2048] array read as 16384 rows of 2048 features) and output feature o,
      out = g · (x · Aᵀ)(o) + (1 − g) · ((x · Pᵀ) · Qᵀ)(o) + bias(o),   g = 1 / (1 + exp(−(x · gw + gb))),
  where A = (W1 · W2) ∘ mask, P is the first 204 rows of W2 and Q the first 204 columns of W1.

  The kernel program computes A in a first kernel region (the contraction split into four blocks of 512, accumulated
  in a scratch buffer over the innermost grid axis, masked and stored at the last block), prepares P, Q and the
  reshaped operands on the host, and computes the rows in a second kernel region, 256 rows per grid point, the gate
  by a lane sum and the kernel's logistic operation. The reference computes the same with whole-array contractions
  and the logistic function spelt 1 / (1 + exp(−z)). At the ideal instance the two spellings of the logistic function
  are one function, a change of float format is the identity, and the only law needed to join the two sides is that
  a finite sum may be regrouped into consecutive blocks; no finiteness of the inputs is used.

  The three frames: the reference's is its run with the result dropped; the kernel program's (at the word-level
  instance and at the ideal one) is read off one run of the whole program, which ends with every buffer at the
  contents obtained by folding the regions' write-backs and the host operations from the launch memory.
-/
import proofs.«129056_j47304769798215_2_alg».proof.Defs
import proofs.«129056_j47304769798215_2_alg».proof.Proof.Gen.Kernel
import proofs.«129056_j47304769798215_2_alg».proof.Proof.Gen.KernelIdeal
import proofs.«129056_j47304769798215_2_alg».proof.Proof.Gen.ReferenceIdeal
import proofs.«129056_j47304769798215_2_alg».proof.Proof.Gen.Pre_finite_inputs
import proofs.«129056_j47304769798215_2_alg».proof.Proof.Gen.ReferenceIdeal.Run
import proofs.«129056_j47304769798215_2_alg».proof.Proof.Gen.ReferenceIdeal.Read
import proofs.«129056_j47304769798215_2_alg».proof.Proof.Kernel.Kept
import proofs.«129056_j47304769798215_2_alg».proof.Proof.KernelIdeal.Final
import proofs.«129056_j47304769798215_2_alg».proof.Proof.RefIsSpec
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs to the end and leaves its arguments as launched. -/
theorem frame_k : Cert.frame_Kernel := fun m ρ _ => Cert.Kernel.Hand.frame m ρ
/-- So does its idealization. -/
theorem frame_ki : Cert.frame_KernelIdeal := fun m ρ _ => Cert.KernelIdeal.Hand.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The ideal pass rewrote nothing. -/
theorem preserves : Cert.preserves_Kernel_KernelIdeal := trivial

/-- At the ideal instance both programs end with the same result, element by element: each is the row function of the
    shared specification at row (b, s) and feature o, of arguments that agree. -/
theorem algebraic : Cert.algebraic_KernelIdeal_ReferenceIdeal := by
  intro m ρ m' ρ' _ hagree
  refine ⟨fun c => Cert.KernelIdeal.Hand.W4 m ρ c (Proc.devRef .tc Cert.KernelIdeal.main_v9), ?_, ?_⟩
  · exact (θ_run Cert.KernelIdeal.defs _ _).mono (fun r h c =>
      ⟨h c _ (Cert.KernelIdeal.Hand.mem_uc Cert.KernelIdeal.main_v9 (by decide)),
       (h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c),
       (h c _ (Cert.KernelIdeal.Hand.mem_uc Cert.KernelIdeal.main_arg3 (by decide))).trans (Cert.KernelIdeal.Hand.W4_main_arg3 m ρ c),
       (h c _ (Cert.KernelIdeal.Hand.mem_uc Cert.KernelIdeal.main_arg4 (by decide))).trans (Cert.KernelIdeal.Hand.W4_main_arg4 m ρ c),
       (h c _ (Cert.KernelIdeal.Hand.mem_uc Cert.KernelIdeal.main_arg5 (by decide))).trans (Cert.KernelIdeal.Hand.W4_main_arg5 m ρ c),
       (h c _ (Cert.KernelIdeal.Hand.mem_uc Cert.KernelIdeal.main_arg6 (by decide))).trans (Cert.KernelIdeal.Hand.W4_main_arg6 m ρ c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v26_eq _ _ _ _ _ _ _).trans ?_
    funext j
    obtain ⟨b, s, o, rfl⟩ : ∃ (b : Fin 4) (s : Fin 4096) (o : Fin 2048), j = ix3 b s o := ⟨j 0, j 1, j 2, eq_ix3 j⟩
    rw [Cert.ReferenceIdeal.RefValue.ref_eq]
    refine Eq.trans ?_ (Cert.KernelIdeal.Hand.kernel_value m ρ c b s o).symm
    rw [(hagree c).1, (hagree c).2.1, (hagree c).2.2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
